-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  reducesTo_S8192x256_S8192_d1 : S8192x256.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x256 .f32) (main_v13 : IVec S_ 1) (main_v15 : FVec F S8192 .f32) (main_cst_5 : FVec F S_ .f32) : IVec S_ 1 :=
  let main_v16 : FVec F S8192 .f32 := broadcastInDim S8192 ![] bcast_S_S8192 main_cst_5
  let main_v17 : IVec S8192 1 := cmpf .ogt main_v15 main_v16
  let main_c_6 : IVec S_ 1 := constantI S_ 1 1#1
  let main_v18 : IVec S_ 1 := (fun x v => Host.reduce IntOp.andi x v reducesTo_S8192_S_d0 h_S_) main_v17 main_c_6
  let main_v19 : IVec S_ 1 := andi main_v13 main_v18
  let main_v20 : FVec F S8192x256 .f32 := mulf main_arg1 main_arg1
  let main_cst_7 : FVec F S_ .f32 := constant S_ .f32 0x00000000#32
  let main_v21 : FVec F S8192 .f32 := (fun x v => Host.reduceAdd x v reducesTo_S8192x256_S8192_d1 h_S_) main_v20 main_cst_7
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v19 main_v24
  main_v25

def fn {F : FTy → Type} [FloatOps F] (main_arg0 : FVec F S8192x256 .f32) (main_arg1 : FVec F S8192x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S8192x256 .f32 := mulf main_arg0 main_arg0
  let main_cst_4 : FVec F S_ .f32 := constant S_ .f32 0x00000000#32
  let main_v15 : FVec F S8192 .f32 := (fun x v => Host.reduceAdd x v reducesTo_S8192x256_S8192_d1 h_S_) main_v14 main_cst_4
  let main_cst_5 : FVec F S_ .f32 := constant S_ .f32 0x00000000#32
  fn_part1 (F := F) main_arg1 main_v13 main_v15 main_cst_5
-- ==== Kernel.lean ====
abbrev S8192x256 : Shape := ⟨2, ![8192, 256]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S512x256 : Shape := ⟨2, ![512, 256]⟩
abbrev S512x1 : Shape := ⟨2, ![512, 1]⟩
abbrev S1024x1 : Shape := ⟨2, ![1024, 1]⟩
abbrev S1024 : Shape := ⟨1, ![1024]⟩
abbrev S256x512 : Shape := ⟨2, ![256, 512]⟩
abbrev S1024x512 : Shape := ⟨2, ![1024, 512]⟩

abbrev nBuf : Space → Nat
  | .hbm => 15
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S512x1, .f32⟩
  | .local _ .vmem, ⟨6, _⟩ => ⟨S512x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x256, .bf16⟩
  | .local _ .vmem, ⟨13, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_call0_cst : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  transposes_S512x256_p1_0_S256x512 : S512x256.Transposes [1, 0] S256x512
  reduces_S1024x512_S1024 : S1024x512.Reduces [1] S1024
  broadcasts_S1024x1_S1024x512 : S1024x1.Broadcasts S1024x512
  reducesTo_S8192x1_S_d0_1 : S8192x1.ReducesTo [0, 1] S_
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x256, .f32⟩
  | .hbm, ⟨16, _⟩ => ⟨S8192x256, .f32⟩
  | .hbm, ⟨17, _⟩ => ⟨S256x8192, .f32⟩
  | .hbm, ⟨18, _⟩ => ⟨S8192x8192, .f32⟩
  | .hbm, ⟨19, _⟩ => ⟨S256x256, .f32⟩
  | .hbm, ⟨20, _⟩ => ⟨S8192x256, .f32⟩
  | .hbm, ⟨21, _⟩ => ⟨S256x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_call2_cst : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  transposes_S256x256_S256x256_1_0 : S256x256.Transposes [1, 0] S256x256
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []
  dot_S8192x256_S256x256_S8192x256_1_0_0_1_n_n_wf : DotDims.WF S8192x256 S256x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The two programs' results as expressions on the extended reals, over the argument arrays read as
  curried functions  Q C : Fin 8192 → Fin 256 → EReal  (query and context rows) and
  W : Fin 256 → Fin 256 → EReal  (the linear layer, stored [out, in]).

  Shared by both sides:  ql n e = ∑ₖ Q n k · W e k  (the linear image of query row n) and the attention logit
  S n m = ∑ₖ ql n k · C m k.

  The reference normalises rows by a quotient with the square root of the sum of squares, takes the softmax of
  row n of S relative to the row maximum, and sums softmax · cosine over the row.

  The kernel normalises rows by a product with the reciprocal square root, and walks row n of S in 16 tiles of
  512 columns keeping a running maximum, a denominator and a numerator, each rescaled by
  exp (old maximum - new maximum) when a tile is entered; the row's value is numerator / denominator after the
  last tile.
-/
import Idealize.ShloMosaic.PureOps.Ideal
import Idealize.ShloMosaic.PureOps.Ideal.Laws
import Mathlib

noncomputable section

namespace Cert.Spec

open Idealize.ShloMosaic

/-- The sum of the squares of row `n`. -/
def sq (X : Fin 8192 → Fin 256 → EReal) (n : Fin 8192) : EReal := ∑ k : Fin 256, X n k * X n k

/-- The linear image of query row `n`: `query · Wᵀ`. -/
def ql (Q : Fin 8192 → Fin 256 → EReal) (W : Fin 256 → Fin 256 → EReal) (n : Fin 8192) (e : Fin 256) : EReal :=
  ∑ k : Fin 256, Q n k * W e k

/-- The attention logit of query row `n` against context row `m`. -/
def S (Q C : Fin 8192 → Fin 256 → EReal) (W : Fin 256 → Fin 256 → EReal) (n m : Fin 8192) : EReal :=
  ∑ k : Fin 256, ql Q W n k * C m k

/-! ## The reference -/

/-- A row's Euclidean norm as the reference takes it: the square root of zero plus the sum of squares. -/
def rnorm (X : Fin 8192 → Fin 256 → EReal) (n : Fin 8192) : EReal := Ideal.sqrt (0 + sq X n)

/-- A row divided by its norm. -/
def rrow (X : Fin 8192 → Fin 256 → EReal) (n : Fin 8192) (k : Fin 256) : EReal := Ideal.div (X n k) (rnorm X n)

/-- The cosine of query row `n` and context row `m`. -/
def rcos (Q C : Fin 8192 → Fin 256 → EReal) (n m : Fin 8192) : EReal := ∑ k : Fin 256, rrow Q n k * rrow C m k

/-- The maximum of row `n` of the logits, from `-∞`. -/
def rmax (Q C : Fin 8192 → Fin 256 → EReal) (W : Fin 256 → Fin 256 → EReal) (n : Fin 8192) : EReal :=
  max ⊥ ((Finset.univ : Finset (Fin 8192)).fold max ⊥ fun m => S Q C W n m)

def rexp (Q C : Fin 8192 → Fin 256 → EReal) (W : Fin 256 → Fin 256 → EReal) (n m : Fin 8192) : EReal :=
  Ideal.exp (S Q C W n m - rmax Q C W n)

def rden (Q C : Fin 8192 → Fin 256 → EReal) (W : Fin 256 → Fin 256 → EReal) (n : Fin 8192) : EReal :=
  0 + ∑ m : Fin 8192, rexp Q C W n m

/-- The softmax weight of column `m` in row `n`. -/
def rattn (Q C : Fin 8192 → Fin 256 → EReal) (W : Fin 256 → Fin 256 → EReal) (n m : Fin 8192) : EReal :=
  Ideal.div (rexp Q C W n m) (rden Q C W n)

/-- Row `n`'s contribution in the reference. -/
def rrowsum (Q C : Fin 8192 → Fin 256 → EReal) (W : Fin 256 → Fin 256 → EReal) (n : Fin 8192) : EReal :=
  ∑ m : Fin 8192, rattn Q C W n m * rcos Q C n m

/-! ## The kernel -/

/-- A query row times the reciprocal square root of its sum of squares. -/
def kqn (Q : Fin 8192 → Fin 256 → EReal) (n : Fin 8192) (k : Fin 256) : EReal := Q n k * Ideal.rsqrt (sq Q n)

/-- A context row times the reciprocal square root of zero plus its sum of squares (computed outside the kernel). -/
def kcn (C : Fin 8192 → Fin 256 → EReal) (m : Fin 8192) (k : Fin 256) : EReal := C m k * Ideal.rsqrt (0 + sq C m)

def kcos (Q C : Fin 8192 → Fin 256 → EReal) (n m : Fin 8192) : EReal := ∑ k : Fin 256, kqn Q n k * kcn C m k

/-- Column `s` of tile `j` (tiles of 512 columns; `j < 16` in every use). -/
def col (j : ℕ) (s : Fin 512) : Fin 8192 := ⟨(512 * j + s.val) % 8192, Nat.mod_lt _ (by norm_num)⟩

/-- The maximum of tile `j` of row `n` of the logits, from `-∞`. -/
def tmax (Q C : Fin 8192 → Fin 256 → EReal) (W : Fin 256 → Fin 256 → EReal) (n : Fin 8192) (j : ℕ) : EReal :=
  (Finset.univ : Finset (Fin 512)).fold max ⊥ fun s => S Q C W n (col j s)

/-- The running maximum after tile `j`. -/
def mrun (Q C : Fin 8192 → Fin 256 → EReal) (W : Fin 256 → Fin 256 → EReal) (n : Fin 8192) : ℕ → EReal
  | 0 => max ⊥ (tmax Q C W n 0)
  | j + 1 => max (mrun Q C W n j) (tmax Q C W n (j + 1))

/-- The running maximum before tile `j`. -/
def mprev (Q C : Fin 8192 → Fin 256 → EReal) (W : Fin 256 → Fin 256 → EReal) (n : Fin 8192) : ℕ → EReal
  | 0 => ⊥
  | j + 1 => mrun Q C W n j

/-- The rescaling coefficient on entering tile `j`. -/
def acoef (Q C : Fin 8192 → Fin 256 → EReal) (W : Fin 256 → Fin 256 → EReal) (n : Fin 8192) (j : ℕ) : EReal :=
  Ideal.exp (mprev Q C W n j - mrun Q C W n j)

/-- The exponential of a logit of tile `j` relative to the running maximum after that tile. -/
def pexp (Q C : Fin 8192 → Fin 256 → EReal) (W : Fin 256 → Fin 256 → EReal) (n : Fin 8192) (j : ℕ) (s : Fin 512) : EReal :=
  Ideal.exp (S Q C W n (col j s) - mrun Q C W n j)

/-- The denominator after tile `j`. -/
def lrun (Q C : Fin 8192 → Fin 256 → EReal) (W : Fin 256 → Fin 256 → EReal) (n : Fin 8192) : ℕ → EReal
  | 0 => acoef Q C W n 0 * 0 + ∑ s : Fin 512, pexp Q C W n 0 s
  | j + 1 => acoef Q C W n (j + 1) * lrun Q C W n j + ∑ s : Fin 512, pexp Q C W n (j + 1) s

/-- The numerator after tile `j`. -/
def nrun (Q C : Fin 8192 → Fin 256 → EReal) (W : Fin 256 → Fin 256 → EReal) (n : Fin 8192) : ℕ → EReal
  | 0 => acoef Q C W n 0 * 0 + ∑ s : Fin 512, pexp Q C W n 0 s * kcos Q C n (col 0 s)
  | j + 1 => acoef Q C W n (j + 1) * nrun Q C W n j + ∑ s : Fin 512, pexp Q C W n (j + 1) s * kcos Q C n (col (j + 1) s)

/-- Row `n`'s contribution in the kernel: numerator over denominator after the last of the 16 tiles. -/
def krow (Q C : Fin 8192 → Fin 256 → EReal) (W : Fin 256 → Fin 256 → EReal) (n : Fin 8192) : EReal :=
  Ideal.div (nrun Q C W n 15) (lrun Q C W n 15)

/-! ## The common tail -/

/-- Both programs end alike: zero plus the sum of the row contributions, divided by the literal 8192.0, then the
    maximum with the literal zero. -/
def tail (x : EReal) : EReal :=
  max (Ideal.div (0 + x) (Ideal.ofBits .f32 0x46000000#32)) (Ideal.ofBits .f32 0x00000000#32)

def kresult (Q C : Fin 8192 → Fin 256 → EReal) (W : Fin 256 → Fin 256 → EReal) : EReal := tail (∑ n : Fin 8192, krow Q C W n)

def rresult (Q C : Fin 8192 → Fin 256 → EReal) (W : Fin 256 → Fin 256 → EReal) : EReal := tail (∑ n : Fin 8192, rrowsum Q C W n)

end Cert.Spec

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.LibSoftmaxReal.lean ====
/-
  Softmax over the extended reals, on real logits: general facts (Mathlib and the exact float operations only).

  * the f32 patterns of `1.0` and of `−∞` denote `1` and `⊥`;
  * a finite sum of reals is real; `tanh` of any extended real is real;
  * the fold of `max` from a start value below `⊤` over a nonempty finite family of reals is real;
  * for real logits `z` and a real shift `M`, `Σ exp (z i − M)` over a nonempty finite set is positive;
  * `a · (1 / w) = a / w` whenever `w ≠ 0` (at `w = 0` the two differ: `1 / 0 = ⊤`, `0 · ⊤ = 0`, `0 / 0 = ⊥`);
  * hence the softmax written as a product with the reciprocal of the sum equals the softmax written as a quotient.
-/
import Idealize.ShloMosaic.PureOps.Ideal
import Idealize.ShloMosaic.PureOps.IdealRules

noncomputable section

namespace Cert.Lib.SoftmaxReal

open Idealize.ShloMosaic

/-- The f32 pattern of `1.0` denotes the real `1`. -/
theorem ofBits_one_f32 : Ideal.ofBits .f32 0x3F800000#32 = (1 : EReal) := IdealRules.sign_bit.ideal_onePat .f32

/-- The f32 pattern of `−∞` denotes the bottom of the extended reals. -/
theorem ofBits_negInf_f32 : Ideal.ofBits .f32 0xFF800000#32 = (⊥ : EReal) := by simp [Ideal.ofBits, Ideal.ieee]

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := h a (Finset.mem_insert_self a S)
    obtain ⟨q, hq⟩ := ih (fun i hi => h i (Finset.mem_insert_of_mem hi))
    exact ⟨r + q, by rw [Finset.sum_insert ha, hr, hq, EReal.coe_add]⟩

/-- `tanh` of any extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The greatest of a nonempty finite family of reals, folded from a start value below `⊤`, is a real number. -/
theorem fold_max_real {ι : Type} (S : Finset ι) (hS : S.Nonempty) (c : EReal) (hc : c < ⊤) (z : ι → EReal)
    (hz : ∀ i ∈ S, ∃ r : ℝ, z i = (r : EReal)) : ∃ r : ℝ, S.fold max c z = (r : EReal) := by
  have hlt : S.fold max c z < ⊤ := by
    rw [Finset.fold_max_lt]
    exact ⟨hc, fun x hx => by obtain ⟨r, hr⟩ := hz x hx; rw [hr]; exact EReal.coe_lt_top _⟩
  have hgt : ⊥ < S.fold max c z := by
    obtain ⟨i, hi⟩ := hS
    have h0 : z i ≤ S.fold max c z := by
      rw [Finset.le_fold_max]
      exact Or.inr ⟨i, hi, le_rfl⟩
    obtain ⟨r, hr⟩ := hz i hi
    exact lt_of_lt_of_le (by rw [hr]; exact EReal.bot_lt_coe _) h0
  exact ⟨(S.fold max c z).toReal, (EReal.coe_toReal hlt.ne hgt.ne').symm⟩

/-- For real logits and a real shift the sum of the exponentials over a nonempty finite set is positive. -/
theorem sum_exp_sub_pos {ι : Type} (S : Finset ι) (hS : S.Nonempty) (z : ι → EReal) (M : EReal)
    (hz : ∀ i ∈ S, ∃ r : ℝ, z i = (r : EReal)) (hM : ∃ r : ℝ, M = (r : EReal)) :
    (0 : EReal) < ∑ i ∈ S, Ideal.exp (z i - M) := by
  obtain ⟨mr, rfl⟩ := hM
  have hw : ∀ i ∈ S, ∃ q : ℝ, 0 < q ∧ Ideal.exp (z i - (mr : EReal)) = (q : EReal) := fun i hi => by
    obtain ⟨r, hr⟩ := hz i hi
    exact ⟨Real.exp (r - mr), Real.exp_pos _, by rw [hr, ← EReal.coe_sub]; exact Ideal.exp_coe _⟩
  obtain ⟨i0, hi0⟩ := hS
  refine lt_of_lt_of_le ?_ (Finset.single_le_sum (f := fun i => Ideal.exp (z i - (mr : EReal))) (fun i hi => ?_) hi0)
  · obtain ⟨q, hq, e⟩ := hw i0 hi0
    show (0 : EReal) < Ideal.exp (z i0 - (mr : EReal))
    rw [e]; exact EReal.coe_pos.mpr hq
  · obtain ⟨q, hq, e⟩ := hw i hi
    show (0 : EReal) ≤ Ideal.exp (z i - (mr : EReal))
    rw [e]; exact EReal.coe_nonneg.mpr hq.le

/-- Off `w = 0` the product with the reciprocal is the quotient. -/
theorem mul_div_one_eq_div (a w : EReal) (hw : w ≠ 0) : a * Ideal.div 1 w = Ideal.div a w := by
  rw [Ideal.div, if_neg hw, Ideal.div, if_neg hw, one_mul]

/-- On real logits the softmax as a product with the reciprocal of the sum is the softmax as a quotient by the sum; the
    shift is the fold of `max` from any start value below `⊤` (a program's `−∞`). -/
theorem softmax_recip_eq_quot {ι : Type} (S : Finset ι) (hS : S.Nonempty) (c : EReal) (hc : c < ⊤) (z : ι → EReal)
    (hz : ∀ i ∈ S, ∃ r : ℝ, z i = (r : EReal)) (u : ι) :
    Ideal.exp (z u - S.fold max c z) * Ideal.div 1 (∑ i ∈ S, Ideal.exp (z i - S.fold max c z))
      = Ideal.div (Ideal.exp (z u - S.fold max c z)) (∑ i ∈ S, Ideal.exp (z i - S.fold max c z)) :=
  mul_div_one_eq_div _ _ (sum_exp_sub_pos S hS z _ hz (fold_max_real S hS c hc z hz)).ne'

end Cert.Lib.SoftmaxReal

end
-- ==== Proof.RefRead.lean ====
/-
  The reference read at an index: its final scalar is the specification's `rresult` of the argument arrays.

  Each stage of the reference is read at an explicit index, bottom-up: the row norms, the normalised rows and their
  cosine, the linear image and the logits, the row maximum, the exponentials and their row sum, the softmax weights,
  the product with the cosine, the total sum and the common tail.
-/
import proofs.«103096_j26096221291172_2_alg».proof.Defs
import proofs.«103096_j26096221291172_2_alg».proof.Proof.Gen.ReferenceIdeal.Run
import proofs.«103096_j26096221291172_2_alg».proof.Proof.Gen.ReferenceIdeal.Read
import proofs.«103096_j26096221291172_2_alg».proof.Proof.Spec
import proofs.«103096_j26096221291172_2_alg».proof.Proof.LibColumn
import proofs.«103096_j26096221291172_2_alg».proof.Proof.LibSoftmaxReal

noncomputable section

namespace Cert.RefRead

open Idealize.ShloMosaic Idealize.ShloMosaic.ValueIdx Idealize.ShloMosaic.TcCoe Idealize.SL.Sem
open Cert.ReferenceIdeal Cert.ReferenceIdeal.Gen Cert.ReferenceIdeal.Read

/-! ## The row norms and the normalised rows -/

/-- The literal zero every sum starts from is `0`. -/
theorem zero_lit : FloatOps.ofBits (F := Ideal) .f32 0x00000000#32 = (0 : EReal) := Ideal.ofBits_zero_f32

/-- The literal `-∞` the maximum starts from is `⊥`. -/
theorem negInf_lit : FloatOps.ofBits (F := Ideal) .f32 0xFF800000#32 = (⊥ : EReal) := Cert.Lib.SoftmaxReal.ofBits_negInf_f32

/-- The sum of squares of row `n`, from zero. -/
theorem sumsq_apply (x : (⟨S8192x256, .f32⟩ : BufTy).Contents (Elt Ideal)) (n : Fin 8192) :
    val_main_call0_v1 (F := Ideal) x (ix1 n) = 0 + Spec.sq (fun n k => x (ix2 n k)) n := by
  rw [val_main_call0_v1_apply, val_main_call0_cst_apply, zero_lit]
  refine congrArg (0 + ·) (Finset.sum_congr rfl fun k _ => ?_)
  have e : idx_main_call0_v1 (ix1 n) k = ix2 n k :=
    funext fun a => Fin.ext (by match a with | ⟨0, _⟩ => rfl | ⟨1, _⟩ => rfl)
  rw [val_main_call0_v0_apply, e]
  rfl

/-- The norm of row `n`. -/
theorem norm_apply (x : (⟨S8192x256, .f32⟩ : BufTy).Contents (Elt Ideal)) (n : Fin 8192) :
    val_main_v0 (F := Ideal) x (ix2 n (0 : Fin 1)) = Spec.rnorm (fun n k => x (ix2 n k)) n := by
  have e : idx_main_call0_v2 (ix2 n (0 : Fin 1)) = ix1 n :=
    funext fun a => Fin.ext (by match a with | ⟨0, _⟩ => rfl)
  rw [val_main_v0_apply, val_main_call0_v2_apply, e, sumsq_apply]
  rfl

/-- Row `n` divided by its norm, at column `k`. -/
theorem rrow_apply (x : (⟨S8192x256, .f32⟩ : BufTy).Contents (Elt Ideal)) (n : Fin 8192) (k : Fin 256) :
    val_main_v2 (F := Ideal) x (ix2 n k) = Spec.rrow (fun n k => x (ix2 n k)) n k := by
  have e : idx_main_v1 (ix2 n k) = ix2 n (0 : Fin 1) :=
    funext fun a => Fin.ext (by match a with | ⟨0, _⟩ => rfl | ⟨1, _⟩ => rfl)
  rw [val_main_v2_apply, val_main_v1_apply, e, norm_apply]
  rfl

/-- The second call of the norm is the first on the other argument. -/
theorem v5_eq_v2 (x : (⟨S8192x256, .f32⟩ : BufTy).Contents (Elt Ideal)) : val_main_v5 (F := Ideal) x = val_main_v2 (F := Ideal) x := rfl

/-! ## The cosine, the linear image and the logits -/

/-- The cosine of query row `n` and context row `m`. -/
theorem rcos_apply (x0 x1 : (⟨S8192x256, .f32⟩ : BufTy).Contents (Elt Ideal)) (n m : Fin 8192) :
    val_main_v7 (F := Ideal) x0 x1 (ix2 n m) = Spec.rcos (fun n k => x0 (ix2 n k)) (fun n k => x1 (ix2 n k)) n m := by
  rw [val_main_v7_apply]
  refine Finset.sum_congr rfl fun k _ => ?_
  have el : lidx_main_v7 (ix2 n m) k = ix2 n k :=
    funext fun a => Fin.ext (by match a with | ⟨0, _⟩ => rfl | ⟨1, _⟩ => rfl)
  have er : ridx_main_v7 (ix2 n m) k = ix2 k m :=
    funext fun a => Fin.ext (by match a with | ⟨0, _⟩ => rfl | ⟨1, _⟩ => rfl)
  have et : idx_main_v6 (ix2 k m) = ix2 m k :=
    funext fun a => Fin.ext (by match a with | ⟨0, _⟩ => rfl | ⟨1, _⟩ => rfl)
  rw [el, er, val_main_v6_apply, et, v5_eq_v2, rrow_apply, rrow_apply]

/-- The linear image of query row `n`, at column `e`. -/
theorem ql_apply (x0 : (⟨S8192x256, .f32⟩ : BufTy).Contents (Elt Ideal)) (x2 : (⟨S256x256, .f32⟩ : BufTy).Contents (Elt Ideal))
    (n : Fin 8192) (e : Fin 256) :
    val_main_v9 (F := Ideal) x0 x2 (ix2 n e) = Spec.ql (fun n k => x0 (ix2 n k)) (fun e k => x2 (ix2 e k)) n e := by
  rw [val_main_v9_apply]
  refine Finset.sum_congr rfl fun k _ => ?_
  have el : lidx_main_v9 (ix2 n e) k = ix2 n k :=
    funext fun a => Fin.ext (by match a with | ⟨0, _⟩ => rfl | ⟨1, _⟩ => rfl)
  have er : ridx_main_v9 (ix2 n e) k = ix2 k e :=
    funext fun a => Fin.ext (by match a with | ⟨0, _⟩ => rfl | ⟨1, _⟩ => rfl)
  have et : idx_main_v8 (ix2 k e) = ix2 e k :=
    funext fun a => Fin.ext (by match a with | ⟨0, _⟩ => rfl | ⟨1, _⟩ => rfl)
  rw [el, er, val_main_v8_apply, et]

/-- The logit of query row `n` against context row `m`. -/
theorem S_apply (x0 x1 : (⟨S8192x256, .f32⟩ : BufTy).Contents (Elt Ideal)) (x2 : (⟨S256x256, .f32⟩ : BufTy).Contents (Elt Ideal))
    (n m : Fin 8192) :
    val_main_v11 (F := Ideal) x0 x1 x2 (ix2 n m)
      = Spec.S (fun n k => x0 (ix2 n k)) (fun n k => x1 (ix2 n k)) (fun e k => x2 (ix2 e k)) n m := by
  rw [val_main_v11_apply]
  refine Finset.sum_congr rfl fun k _ => ?_
  have el : lidx_main_v11 (ix2 n m) k = ix2 n k :=
    funext fun a => Fin.ext (by match a with | ⟨0, _⟩ => rfl | ⟨1, _⟩ => rfl)
  have er : ridx_main_v11 (ix2 n m) k = ix2 k m :=
    funext fun a => Fin.ext (by match a with | ⟨0, _⟩ => rfl | ⟨1, _⟩ => rfl)
  have et : idx_main_v10 (ix2 k m) = ix2 m k :=
    funext fun a => Fin.ext (by match a with | ⟨0, _⟩ => rfl | ⟨1, _⟩ => rfl)
  rw [el, er, val_main_v10_apply, et, ql_apply]

/-! ## The row maximum, the exponentials, their row sum and the softmax weights -/

/-- The maximum of row `n` of the logits, from `-∞`. -/
theorem rmax_apply (x0 x1 : (⟨S8192x256, .f32⟩ : BufTy).Contents (Elt Ideal)) (x2 : (⟨S256x256, .f32⟩ : BufTy).Contents (Elt Ideal))
    (n : Fin 8192) :
    val_main_v14 (F := Ideal) x0 x1 x2 (ix1 n)
      = Spec.rmax (fun n k => x0 (ix2 n k)) (fun n k => x1 (ix2 n k)) (fun e k => x2 (ix2 e k)) n := by
  have e13 : val_main_v13 (F := Ideal) (ix1 n) = (⊥ : EReal) := by
    rw [val_main_v13_apply, val_main_cst_0_apply, negInf_lit]
  have e12 : val_main_v12 (F := Ideal) x0 x1 x2 (ix1 n)
      = (Finset.univ : Finset (Fin 8192)).fold max (⊥ : EReal) fun m =>
          Spec.S (fun n k => x0 (ix2 n k)) (fun n k => x1 (ix2 n k)) (fun e k => x2 (ix2 e k)) n m := by
    unfold val_main_v12
    rw [Cert.Lib.hostReduce_max_row (val_main_v11 (F := Ideal) x0 x1 x2) (val_main_cst (F := Ideal))
      reducesTo_S8192x8192_S8192_d1 (by decide) h_S_ n, val_main_cst_apply, negInf_lit]
    exact congrArg (fun f => Finset.fold max (⊥ : EReal) f (Finset.univ : Finset (Fin 8192)))
      (funext fun m => S_apply x0 x1 x2 n m)
  rw [val_main_v14_apply, e13, e12, Ideal.maximumf_def]
  rfl

/-- The exponential of a logit relative to its row's maximum. -/
theorem rexp_apply (x0 x1 : (⟨S8192x256, .f32⟩ : BufTy).Contents (Elt Ideal)) (x2 : (⟨S256x256, .f32⟩ : BufTy).Contents (Elt Ideal))
    (n m : Fin 8192) :
    val_main_v18 (F := Ideal) x0 x1 x2 (ix2 n m)
      = Spec.rexp (fun n k => x0 (ix2 n k)) (fun n k => x1 (ix2 n k)) (fun e k => x2 (ix2 e k)) n m := by
  have e16 : idx_main_v16 (ix2 n m) = ix2 n (0 : Fin 1) :=
    funext fun a => Fin.ext (by match a with | ⟨0, _⟩ => rfl | ⟨1, _⟩ => rfl)
  have e15 : idx_main_v15 (ix2 n (0 : Fin 1)) = ix1 n :=
    funext fun a => Fin.ext (by match a with | ⟨0, _⟩ => rfl)
  rw [val_main_v18_apply, val_main_v17_apply, val_main_v16_apply, e16, val_main_v15_apply, e15, rmax_apply, S_apply,
    Ideal.subf_def, Ideal.hostUnary_exp_def]
  rfl

/-- The sum of row `n`'s exponentials, from zero. -/
theorem rden_apply (x0 x1 : (⟨S8192x256, .f32⟩ : BufTy).Contents (Elt Ideal)) (x2 : (⟨S256x256, .f32⟩ : BufTy).Contents (Elt Ideal))
    (n : Fin 8192) :
    val_main_v19 (F := Ideal) x0 x1 x2 (ix1 n)
      = Spec.rden (fun n k => x0 (ix2 n k)) (fun n k => x1 (ix2 n k)) (fun e k => x2 (ix2 e k)) n := by
  rw [val_main_v19_apply, val_main_cst_1_apply, zero_lit]
  refine congrArg (0 + ·) (Finset.sum_congr rfl fun m _ => ?_)
  have e : idx_main_v19 (ix1 n) m = ix2 n m :=
    funext fun a => Fin.ext (by match a with | ⟨0, _⟩ => rfl | ⟨1, _⟩ => rfl)
  rw [e, rexp_apply]

/-- The softmax weight of column `m` in row `n`. -/
theorem rattn_apply (x0 x1 : (⟨S8192x256, .f32⟩ : BufTy).Contents (Elt Ideal)) (x2 : (⟨S256x256, .f32⟩ : BufTy).Contents (Elt Ideal))
    (n m : Fin 8192) :
    val_main_v22 (F := Ideal) x0 x1 x2 (ix2 n m)
      = Spec.rattn (fun n k => x0 (ix2 n k)) (fun n k => x1 (ix2 n k)) (fun e k => x2 (ix2 e k)) n m := by
  have e21 : idx_main_v21 (ix2 n m) = ix2 n (0 : Fin 1) :=
    funext fun a => Fin.ext (by match a with | ⟨0, _⟩ => rfl | ⟨1, _⟩ => rfl)
  have e20 : idx_main_v20 (ix2 n (0 : Fin 1)) = ix1 n :=
    funext fun a => Fin.ext (by match a with | ⟨0, _⟩ => rfl)
  rw [val_main_v22_apply, val_main_v21_apply, e21, val_main_v20_apply, e20, rden_apply, rexp_apply, Ideal.hostDivf_def]
  rfl

/-! ## The weighted cosines, their total and the tail -/

/-- The softmax weight times the cosine. -/
theorem prod_apply (x0 x1 : (⟨S8192x256, .f32⟩ : BufTy).Contents (Elt Ideal)) (x2 : (⟨S256x256, .f32⟩ : BufTy).Contents (Elt Ideal))
    (n m : Fin 8192) :
    val_main_v23 (F := Ideal) x0 x1 x2 (ix2 n m)
      = Spec.rattn (fun n k => x0 (ix2 n k)) (fun n k => x1 (ix2 n k)) (fun e k => x2 (ix2 e k)) n m
          * Spec.rcos (fun n k => x0 (ix2 n k)) (fun n k => x1 (ix2 n k)) n m := by
  rw [val_main_v23_apply, rattn_apply, rcos_apply, Ideal.mulf_def]

/-- The total over every row and column, from zero: zero plus the sum of the rows' contributions. -/
theorem total_apply (x0 x1 : (⟨S8192x256, .f32⟩ : BufTy).Contents (Elt Ideal)) (x2 : (⟨S256x256, .f32⟩ : BufTy).Contents (Elt Ideal))
    (i : S_.Idx) :
    val_main_v24 (F := Ideal) x0 x1 x2 i
      = 0 + ∑ n : Fin 8192, Spec.rrowsum (fun n k => x0 (ix2 n k)) (fun n k => x1 (ix2 n k)) (fun e k => x2 (ix2 e k)) n := by
  rw [val_main_v24_apply, val_main_cst_2_apply, zero_lit, ValueIdx.sum_idx2]
  refine congrArg (0 + ·) (Finset.sum_congr rfl fun n _ => ?_)
  exact Finset.sum_congr rfl fun m _ => prod_apply x0 x1 x2 n m

/-- The reference's result, as a function of the argument arrays, is the specification's. -/
theorem value (x0 x1 : (⟨S8192x256, .f32⟩ : BufTy).Contents (Elt Ideal)) (x2 : (⟨S256x256, .f32⟩ : BufTy).Contents (Elt Ideal)) :
    Cert.ReferenceIdeal.Read.val_main_v26 (F := Ideal) x0 x1 x2
      = fun _ => Cert.Spec.rresult (fun n k => x0 (ix2 n k)) (fun n k => x1 (ix2 n k)) (fun e k => x2 (ix2 e k)) := by
  funext i
  rw [val_main_v26_apply, val_main_v25_apply, total_apply, val_main_cst_3_apply, val_main_call2_cst_apply,
    Ideal.hostDivf_def, Ideal.maximumf_def]
  rfl

end Cert.RefRead

end
-- ==== Proof.PreFacts.lean ====
/-
  What the precondition says of the argument arrays: every entry of the three arrays is a real number, and every
  row of the query and of the context array has a positive sum of squares.
-/
import proofs.«103096_j26096221291172_2_alg».proof.Pre_finite_inputs
import proofs.«103096_j26096221291172_2_alg».proof.Proof.Gen.Pre_finite_inputs
import Idealize.ShloMosaic.PureOps.Ideal
import Idealize.ShloMosaic.PureOps.Ideal.Laws
import Idealize.ShloMosaic.Lib.ValueIdx
import Idealize.ShloMosaic.Lib.IdealHost
import Idealize.ShloMosaic.Lib.ReduceAll

noncomputable section

namespace Cert.PreFacts

open Idealize.ShloMosaic Idealize.ShloMosaic.ValueIdx Cert.Pre_finite_inputs

/-- The scalar shape has exactly one index. -/
instance : Subsingleton S_.Idx := ⟨fun a b => funext fun d => d.elim0⟩

/-- The pattern 0x7F800000 is +∞. -/
theorem ofBits_inf_f32 : Ideal.ofBits .f32 0x7F800000#32 = (⊤ : EReal) := by simp [Ideal.ofBits, Ideal.ieee]

/-- An extended real whose absolute value max x (-x) lies strictly below +∞ is a real number: at either infinity the
    absolute value is +∞ itself. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- Inserting the coordinate k on axis 1 of the row index n gives the matrix index (n, k). -/
theorem lift_row (hR : S8192x256.Reduces [1] S8192) (n : Fin 8192) (k : Fin 256) : hR.lift (ix1 n) k = ix2 n k := by
  funext c; apply Fin.ext; fin_cases c <;> rfl

/-- The comparison "x greater than y", where it holds, says y < x. -/
theorem lt_of_cmp_ogt {x y : EReal} (h : Ideal.cmp .ogt x y = 1#1) : y < x := by
  by_contra hlt
  simp [Ideal.cmp, hlt] at h

/-- One entry of the finiteness test: where |a i| < +∞ holds, a i is a real number. -/
theorem real_of_entry {s : Shape} (a : FVec Ideal s .f32) (hb : S_.BroadcastsInDim s (![] : Fin 0 → Fin s.rank)) (i : s.Idx)
    (hi : cmpf .olt (Host.absf a) (broadcastInDim s ![] hb (constant S_ .f32 0x7F800000#32)) i = 1#1) :
    ∃ r : ℝ, a i = (r : EReal) := by
  refine real_of_abs_lt_top (a i) ?_
  rw [← ofBits_inf_f32]
  exact hi

/-- One entry of the row test: where (the sum over the row of the squares, from zero) > 0 holds, the row's sum of
    squares is positive. -/
theorem row_pos (a : FVec Ideal S8192x256 .f32) (hT : S8192x256.ReducesTo [1] S8192) (hu : 0 < S_.numel)
    (hb : S_.BroadcastsInDim S8192 (![] : Fin 0 → Fin S8192.rank)) (n : Fin 8192)
    (hn : cmpf .ogt (Host.reduceAdd (mulf a a) (constant S_ .f32 0x00000000#32) hT hu)
        (broadcastInDim S8192 ![] hb (constant S_ .f32 0x00000000#32)) (ix1 n) = 1#1) :
    0 < ∑ k : Fin 256, a (ix2 n k) * a (ix2 n k) := by
  have hR : S8192x256.Reduces [1] S8192 := by decide
  -- the host's sum at row n: the initial value zero plus the sum over the row
  have hsum : Host.reduceAdd (mulf a a) (constant S_ .f32 0x00000000#32) hT hu (ix1 n)
      = ∑ k : Fin 256, a (ix2 n k) * a (ix2 n k) := by
    rw [hostReduceAdd_apply, Ideal.hostReduceAdd_single hT hR]
    show Ideal.ofBits .f32 0x00000000#32 + _ = _
    rw [Ideal.ofBits_zero_f32, zero_add]
    exact Finset.sum_congr rfl fun k _ => congrArg (fun i => a i * a i) (lift_row hR n k)
  have hc : Ideal.cmp .ogt (∑ k : Fin 256, a (ix2 n k) * a (ix2 n k)) (Ideal.ofBits .f32 0x00000000#32) = 1#1 := by
    rw [← hsum]
    exact hn
  have hpos := lt_of_cmp_ogt hc
  rwa [Ideal.ofBits_zero_f32] at hpos

/-- The precondition at the ideal instance, decoded. -/
theorem decode [Cert.Pre_finite_inputs.Facts] (a0 a1 : FVec Ideal S8192x256 .f32) (a2 : FVec Ideal S256x256 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal))
    ∧ (∀ n : Fin 8192, 0 < ∑ k : Fin 256, a0 (ix2 n k) * a0 (ix2 n k))
    ∧ (∀ n : Fin 8192, 0 < ∑ k : Fin 256, a1 (ix2 n k) * a1 (ix2 n k)) := by
  have e := congrFun h ix0
  dsimp only [Cert.Pre_finite_inputs.fn, Cert.Pre_finite_inputs.fn_part1] at e
  -- the conjunction of the five tests
  simp only [Idealize.ShloMosaic.andi, IntOp.andi_eq_one] at e
  obtain ⟨⟨⟨⟨h0, h1⟩, h2⟩, hs0⟩, hs1⟩ := e
  refine ⟨fun i => ?_, fun i => ?_, fun i => ?_, fun n => ?_, fun n => ?_⟩
  · exact real_of_entry a0 _ i (Host.reduce_andi_all _ _ _ _ ix0 h0 i)
  · exact real_of_entry a1 _ i (Host.reduce_andi_all _ _ _ _ ix0 h1 i)
  · exact real_of_entry a2 _ i (Host.reduce_andi_all _ _ _ _ ix0 h2 i)
  · exact row_pos a0 _ _ _ n (Host.reduce_andi_all _ _ _ _ ix0 hs0 (ix1 n))
  · exact row_pos a1 _ _ _ n (Host.reduce_andi_all _ _ _ _ ix0 hs1 (ix1 n))

end Cert.PreFacts

end
-- ==== Proof.LibOnlineSoftmax.lean ====
/-
  Online softmax over the reals (Mathlib only).

  A softmax-weighted sum  ∑ₖ (exp (sₖ - M) / ∑ⱼ exp (sⱼ - M)) · vₖ  can be accumulated tile by tile, keeping a
  reference point μ, a denominator l and a numerator acc: on a new tile T with a new reference point μ',

      l'   = exp (μ - μ') · l   + ∑_{k ∈ T} exp (sₖ - μ')
      acc' = exp (μ - μ') · acc + ∑_{k ∈ T} exp (sₖ - μ') · vₖ ,

  the first tile entered with coefficient 0 (the reference point starts at -∞). The invariant is that after the
  tiles covering a set S, l and acc are the sums over S of exp (sₖ - μ) and exp (sₖ - μ) · vₖ. It holds for ANY
  reference points — that μ is the running maximum only matters for rounding — because moving the reference point
  from μ to μ' multiplies every term by exp (μ - μ'). At the end acc / l is the softmax-weighted sum, whatever
  point M the softmax itself is taken relative to.
-/
import Mathlib.Analysis.SpecialFunctions.Exp
import Mathlib.Algebra.BigOperators.Field
import Mathlib.Algebra.Order.BigOperators.Ring.Finset

namespace OnlineSoftmax

open Finset

variable {K : Type*} [DecidableEq K]

/-- The denominator over the keys of `S`, relative to the reference point `μ`. -/
noncomputable def den (s : K → ℝ) (S : Finset K) (μ : ℝ) : ℝ := ∑ k ∈ S, Real.exp (s k - μ)

/-- The numerator over the keys of `S`, relative to the reference point `μ`. -/
noncomputable def num (s v : K → ℝ) (S : Finset K) (μ : ℝ) : ℝ := ∑ k ∈ S, Real.exp (s k - μ) * v k

/-- Moving the reference point from `μ` to `μ'` multiplies a weighted sum of exponentials by `exp (μ - μ')`. -/
theorem rescale (s w : K → ℝ) (S : Finset K) (μ μ' : ℝ) :
    Real.exp (μ - μ') * ∑ k ∈ S, Real.exp (s k - μ) * w k = ∑ k ∈ S, Real.exp (s k - μ') * w k := by
  rw [Finset.mul_sum]
  refine Finset.sum_congr rfl fun k _ => ?_
  rw [← mul_assoc, ← Real.exp_add]
  congr 2
  ring

theorem den_rescale (s : K → ℝ) (S : Finset K) (μ μ' : ℝ) : Real.exp (μ - μ') * den s S μ = den s S μ' := by
  have h := rescale s (fun _ => (1 : ℝ)) S μ μ'
  simpa only [den, mul_one] using h

theorem num_rescale (s v : K → ℝ) (S : Finset K) (μ μ' : ℝ) : Real.exp (μ - μ') * num s v S μ = num s v S μ' :=
  rescale s v S μ μ'

/-- One step on the denominator: the keys of a new tile `T`, disjoint from those seen, at a new reference point. -/
theorem den_step (s : K → ℝ) {S T : Finset K} (h : Disjoint S T) (μ μ' : ℝ) :
    Real.exp (μ - μ') * den s S μ + den s T μ' = den s (S ∪ T) μ' := by
  rw [den_rescale]; unfold den; rw [Finset.sum_union h]

/-- One step on the numerator. -/
theorem num_step (s v : K → ℝ) {S T : Finset K} (h : Disjoint S T) (μ μ' : ℝ) :
    Real.exp (μ - μ') * num s v S μ + num s v T μ' = num s v (S ∪ T) μ' := by
  rw [num_rescale]; unfold num; rw [Finset.sum_union h]

/-- The denominator over a nonempty set is positive. -/
theorem den_pos (s : K → ℝ) {S : Finset K} (hS : S.Nonempty) (μ : ℝ) : 0 < den s S μ :=
  Finset.sum_pos (fun _ _ => Real.exp_pos _) hS

/-- The ratio does not depend on the reference point, and is the softmax-weighted sum relative to any `M`. -/
theorem num_div_den (s v : K → ℝ) {S : Finset K} (hS : S.Nonempty) (μ M : ℝ) :
    num s v S μ / den s S μ = ∑ k ∈ S, Real.exp (s k - M) / (∑ j ∈ S, Real.exp (s j - M)) * v k := by
  have he : Real.exp (μ - M) ≠ 0 := (Real.exp_pos _).ne'
  have h1 : num s v S μ / den s S μ = num s v S M / den s S M := by
    rw [← num_rescale s v S μ M, ← den_rescale s S μ M, mul_div_mul_left _ _ he]
  rw [h1]; unfold num; rw [Finset.sum_div]
  refine Finset.sum_congr rfl fun k _ => ?_
  unfold den; ring

/-! ## The whole run, tile by tile -/

/-- The keys of the first `j` tiles. -/
def seen (tile : ℕ → Finset K) (j : ℕ) : Finset K := (Finset.range j).biUnion tile

theorem seen_succ (tile : ℕ → Finset K) (j : ℕ) : seen tile (j + 1) = seen tile j ∪ tile j := by
  unfold seen; rw [Finset.range_add_one, Finset.biUnion_insert, Finset.union_comm]

theorem seen_disjoint (tile : ℕ → Finset K) (hd : ∀ i j, i ≠ j → Disjoint (tile i) (tile j)) (j : ℕ) :
    Disjoint (seen tile j) (tile j) := by
  unfold seen; rw [Finset.disjoint_biUnion_left]
  intro i hi; exact hd i j (Finset.mem_range.mp hi).ne

/-- THE RUN. Tiles pairwise disjoint; reference points `μ j` used on tile `j` (any reals); the first tile entered
    with coefficient `0`, every later tile `j` with `exp (μ (j-1) - μ j)`. After `j + 1` tiles the two accumulators are
    the sums over the keys seen, relative to `μ j`. -/
theorem run (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j)) (j : ℕ) :
    l (j + 1) = den s (seen tile (j + 1)) (μ j) ∧ acc (j + 1) = num s v (seen tile (j + 1)) (μ j) := by
  induction j with
  | zero =>
    have hs : seen tile 1 = tile 0 := by
      have h := seen_succ tile 0
      unfold seen at h ⊢
      rw [Finset.range_zero, Finset.biUnion_empty, Finset.empty_union] at h
      exact h
    have hl0 : l 1 = a 0 * l 0 + den s (tile 0) (μ 0) := hl 0
    have hacc0 : acc 1 = a 0 * acc 0 + num s v (tile 0) (μ 0) := hacc 0
    show l 1 = den s (seen tile 1) (μ 0) ∧ acc 1 = num s v (seen tile 1) (μ 0)
    rw [hl0, hacc0, ha0, hs, zero_mul, zero_mul, zero_add, zero_add]
    exact ⟨rfl, rfl⟩
  | succ j ih =>
    rw [hl (j + 1), hacc (j + 1), ha j, ih.1, ih.2, seen_succ tile (j + 1),
      den_step s (seen_disjoint tile hd (j + 1)), num_step s v (seen_disjoint tile hd (j + 1))]
    exact ⟨rfl, rfl⟩

/-- THE RESULT. If the first `n + 1` tiles cover a nonempty key set `S`, the final ratio is the softmax-weighted sum
    over `S`, the softmax taken relative to any point `M` (the maximum, in practice). -/
theorem run_result (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j))
    (n : ℕ) {S : Finset K} (hS : S.Nonempty) (hcover : seen tile (n + 1) = S) (M : ℝ) :
    acc (n + 1) / l (n + 1) = ∑ k ∈ S, Real.exp (s k - M) / (∑ j ∈ S, Real.exp (s j - M)) * v k := by
  obtain ⟨h1, h2⟩ := run s v tile hd μ a l acc ha0 ha hl hacc n
  rw [h1, h2, hcover]
  exact num_div_den s v hS (μ n) M

end OnlineSoftmax
-- ==== Proof.LibEReal.lean ====
/-
  General laws on the extended reals, as the idealized float operations read them (Mathlib and the operations' definitions
  only; no program): a product with the reciprocal square root is the quotient by the square root whenever the argument is
  positive, the infinity included (`mul_rsqrt_eq_div_sqrt`: a kernel's `x * rsqrt v` against a reference's `x / sqrt v`);
  a square, and a finite sum of squares, is nonnegative, the infinities included (`mul_self_nonneg`, `sum_mul_self_nonneg`);
  a nonnegative extended real divided by a positive real is nonnegative, and plus a positive real is positive
  (`div_coe_nonneg`, `add_coe_pos`: a variance plus its offset); the logistic function is `1 / (1 + e^(-x))` (`logistic_eq`).
-/
import Idealize.ShloMosaic.PureOps.Ideal
import Idealize.ShloMosaic.PureOps.Ideal.Laws
import Mathlib

noncomputable section

namespace Cert.Bridge.Laws

open Idealize.ShloMosaic

/-- For a positive extended real `v` (a positive real, or `+∞`), `x · v^(-1/2) = x / √v` for every `x`:
    at `+∞` both sides are `x · 0`; at a positive real the quotient is the product with the inverse. -/
theorem mul_rsqrt_eq_div_sqrt (x v : EReal) (hv : 0 < v) : x * Ideal.rsqrt v = Ideal.div x (Ideal.sqrt v) := by
  induction v using EReal.rec with
  | bot => exact absurd hv (by simp)
  | top =>
    have h1 : Ideal.rsqrt ⊤ = 0 := rfl
    have h2 : Ideal.sqrt ⊤ = ⊤ := rfl
    rw [h1, h2]; unfold Ideal.div
    rw [if_neg EReal.top_ne_zero, EReal.inv_top]
  | coe r =>
    have hr : 0 < r := by exact_mod_cast hv
    have hs : 0 < Real.sqrt r := Real.sqrt_pos.mpr hr
    have hs' : ((Real.sqrt r : ℝ) : EReal) ≠ 0 := by exact_mod_cast hs.ne'
    have h1 : Ideal.rsqrt (r : EReal) = if r < 0 then ⊥ else if r = 0 then ⊤ else (((Real.sqrt r)⁻¹ : ℝ) : EReal) := rfl
    have h2 : Ideal.sqrt (r : EReal) = if r < 0 then ⊥ else ((Real.sqrt r : ℝ) : EReal) := rfl
    rw [h1, h2, if_neg (not_lt.mpr hr.le), if_neg hr.ne', if_neg (not_lt.mpr hr.le)]
    unfold Ideal.div
    rw [if_neg hs', EReal.coe_inv]

/-- A square is nonnegative on the extended reals (the square of an infinity is `+∞`). -/
theorem mul_self_nonneg (x : EReal) : 0 ≤ x * x := by
  induction x using EReal.rec with
  | bot => simp
  | top => simp
  | coe r => rw [← EReal.coe_mul]; exact_mod_cast _root_.mul_self_nonneg r

/-- A finite sum of squares is nonnegative. -/
theorem sum_mul_self_nonneg {ι : Type*} (s : Finset ι) (f : ι → EReal) : 0 ≤ ∑ k ∈ s, f k * f k :=
  Finset.sum_nonneg fun k _ => mul_self_nonneg (f k)

/-- The quotient of a nonnegative extended real by a positive real is nonnegative. -/
theorem div_coe_nonneg {s : EReal} (hs : 0 ≤ s) {y : ℝ} (hy : 0 < y) : 0 ≤ Ideal.div s (y : EReal) := by
  rw [Ideal.div_coe hy.ne']
  exact mul_nonneg hs (by exact_mod_cast (one_div_pos.mpr hy).le)

/-- A nonnegative extended real plus a positive real is positive. -/
theorem add_coe_pos {a : EReal} (ha : 0 ≤ a) {e : ℝ} (he : 0 < e) : 0 < a + (e : EReal) := by
  have : (0 : EReal) < (e : EReal) := by exact_mod_cast he
  calc (0 : EReal) < (e : EReal) := this
    _ = 0 + (e : EReal) := (zero_add _).symm
    _ ≤ a + (e : EReal) := add_le_add ha le_rfl

/-- The logistic function is its expansion `1 / (1 + e^(-x))`, the ones being the literal `1.0`. -/
theorem logistic_eq (x one : EReal) (h1 : one = 1) : Ideal.logistic x = Ideal.div one (one + Ideal.exp (-x)) := by
  subst h1; rfl

end Cert.Bridge.Laws

end
-- ==== Proof.Math.lean ====
/-
  The kernel's row value is the reference's: for real arrays whose rows have positive sums of squares,
  numerator / denominator of the tile-by-tile recurrence equals the row sum of softmax · cosine.

  The two normalisations agree outright (a product with the reciprocal square root of a positive extended real is the
  quotient by its square root), so the two cosines are the same extended real. Everything else is real-valued: the
  logits, the cosines, the running maxima and the row maximum. The kernel's denominator and numerator then follow,
  tile by tile, the real recurrence of an online softmax over the sixteen pairwise disjoint tiles of 512 columns,
  which cover all 8192 columns; the ratio at the end is the softmax-weighted sum of the cosines relative to any
  reference point, in particular the row maximum the reference uses.
-/
import proofs.«103096_j26096221291172_2_alg».proof.Proof.Spec
import proofs.«103096_j26096221291172_2_alg».proof.Proof.LibOnlineSoftmax
import proofs.«103096_j26096221291172_2_alg».proof.Proof.LibEReal
import proofs.«103096_j26096221291172_2_alg».proof.Proof.LibSoftmaxReal

noncomputable section

namespace Cert.Math

open Idealize.ShloMosaic Cert.Spec

/-! ## Coercions -/

/-- The coercion of a finite sum of reals is the sum of the coercions. -/
theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-! ## The two normalisations agree, so the two cosines agree -/

theorem kqn_eq_rrow (Q : Fin 8192 → Fin 256 → EReal) (hQn : ∀ n, 0 < sq Q n) (n : Fin 8192) (k : Fin 256) :
    kqn Q n k = rrow Q n k := by
  unfold kqn rrow rnorm
  rw [zero_add]
  exact Cert.Bridge.Laws.mul_rsqrt_eq_div_sqrt _ _ (hQn n)

theorem kcn_eq_rrow (C : Fin 8192 → Fin 256 → EReal) (hCn : ∀ n, 0 < sq C n) (m : Fin 8192) (k : Fin 256) :
    kcn C m k = rrow C m k := by
  unfold kcn rrow rnorm
  rw [zero_add]
  exact Cert.Bridge.Laws.mul_rsqrt_eq_div_sqrt _ _ (hCn m)

theorem kcos_eq_rcos (Q C : Fin 8192 → Fin 256 → EReal) (hQn : ∀ n, 0 < sq Q n) (hCn : ∀ n, 0 < sq C n)
    (n m : Fin 8192) : kcos Q C n m = rcos Q C n m := by
  unfold kcos rcos
  exact Finset.sum_congr rfl fun k _ => by rw [kqn_eq_rrow Q hQn, kcn_eq_rrow C hCn]

/-! ## Everything is real-valued -/

theorem sq_real (X : Fin 8192 → Fin 256 → EReal) (hX : ∀ n k, ∃ r : ℝ, X n k = (r : EReal)) (n : Fin 8192) :
    ∃ r : ℝ, sq X n = (r : EReal) := by
  unfold Cert.Spec.sq
  refine Cert.Lib.SoftmaxReal.exists_real_sum _ _ fun k _ => ?_
  obtain ⟨r, hr⟩ := hX n k
  exact ⟨r * r, by rw [hr, EReal.coe_mul]⟩

/-- A row with a positive sum of squares, divided by its norm, is real: the norm is a positive real. -/
theorem rrow_real (X : Fin 8192 → Fin 256 → EReal) (hX : ∀ n k, ∃ r : ℝ, X n k = (r : EReal))
    (hXn : ∀ n, 0 < sq X n) (n : Fin 8192) (k : Fin 256) : ∃ r : ℝ, rrow X n k = (r : EReal) := by
  obtain ⟨t, ht⟩ := sq_real X hX n
  obtain ⟨x, hx⟩ := hX n k
  have htpos : 0 < t := by
    have h := hXn n
    rw [ht] at h
    exact_mod_cast h
  have hs : 0 < Real.sqrt t := Real.sqrt_pos.mpr htpos
  unfold rrow rnorm
  rw [zero_add, ht, hx, Ideal.sqrt_coe, if_neg (not_lt.mpr htpos.le), Ideal.div_coe hs.ne', ← EReal.coe_mul]
  exact ⟨_, rfl⟩

theorem rcos_real (Q C : Fin 8192 → Fin 256 → EReal)
    (hQ : ∀ n k, ∃ r : ℝ, Q n k = (r : EReal)) (hC : ∀ n k, ∃ r : ℝ, C n k = (r : EReal))
    (hQn : ∀ n, 0 < sq Q n) (hCn : ∀ n, 0 < sq C n) (n m : Fin 8192) : ∃ r : ℝ, rcos Q C n m = (r : EReal) := by
  unfold rcos
  refine Cert.Lib.SoftmaxReal.exists_real_sum _ _ fun k _ => ?_
  obtain ⟨a, ha⟩ := rrow_real Q hQ hQn n k
  obtain ⟨b, hb⟩ := rrow_real C hC hCn m k
  exact ⟨a * b, by rw [ha, hb, EReal.coe_mul]⟩

theorem ql_real (Q : Fin 8192 → Fin 256 → EReal) (W : Fin 256 → Fin 256 → EReal)
    (hQ : ∀ n k, ∃ r : ℝ, Q n k = (r : EReal)) (hW : ∀ e k, ∃ r : ℝ, W e k = (r : EReal))
    (n : Fin 8192) (e : Fin 256) : ∃ r : ℝ, ql Q W n e = (r : EReal) := by
  unfold ql
  refine Cert.Lib.SoftmaxReal.exists_real_sum _ _ fun k _ => ?_
  obtain ⟨a, ha⟩ := hQ n k
  obtain ⟨b, hb⟩ := hW e k
  exact ⟨a * b, by rw [ha, hb, EReal.coe_mul]⟩

theorem S_real (Q C : Fin 8192 → Fin 256 → EReal) (W : Fin 256 → Fin 256 → EReal)
    (hQ : ∀ n k, ∃ r : ℝ, Q n k = (r : EReal)) (hC : ∀ n k, ∃ r : ℝ, C n k = (r : EReal))
    (hW : ∀ e k, ∃ r : ℝ, W e k = (r : EReal)) (n m : Fin 8192) : ∃ r : ℝ, S Q C W n m = (r : EReal) := by
  unfold S
  refine Cert.Lib.SoftmaxReal.exists_real_sum _ _ fun k _ => ?_
  obtain ⟨a, ha⟩ := ql_real Q W hQ hW n k
  obtain ⟨b, hb⟩ := hC m k
  exact ⟨a * b, by rw [ha, hb, EReal.coe_mul]⟩

/-! ## One row, with real logits and real cosines -/

theorem tmax_real (Q C : Fin 8192 → Fin 256 → EReal) (W : Fin 256 → Fin 256 → EReal) (n : Fin 8192)
    (s : Fin 8192 → ℝ) (hs : ∀ m, S Q C W n m = (s m : EReal)) (j : ℕ) :
    ∃ r : ℝ, tmax Q C W n j = (r : EReal) := by
  unfold tmax
  exact Cert.Lib.SoftmaxReal.fold_max_real Finset.univ Finset.univ_nonempty ⊥ bot_lt_top _
    fun i _ => ⟨s (col j i), hs _⟩

/-- Every running maximum is real: a maximum of the least element and of maxima of nonempty tiles of reals. -/
theorem mrun_real (Q C : Fin 8192 → Fin 256 → EReal) (W : Fin 256 → Fin 256 → EReal) (n : Fin 8192)
    (s : Fin 8192 → ℝ) (hs : ∀ m, S Q C W n m = (s m : EReal)) (j : ℕ) :
    ∃ r : ℝ, mrun Q C W n j = (r : EReal) := by
  induction j with
  | zero =>
    obtain ⟨t, ht⟩ := tmax_real Q C W n s hs 0
    have h0 : mrun Q C W n 0 = max ⊥ (tmax Q C W n 0) := rfl
    exact ⟨t, by rw [h0, ht, max_eq_right bot_le]⟩
  | succ j ih =>
    obtain ⟨t, ht⟩ := tmax_real Q C W n s hs (j + 1)
    obtain ⟨m, hm⟩ := ih
    have h1 : mrun Q C W n (j + 1) = max (mrun Q C W n j) (tmax Q C W n (j + 1)) := rfl
    exact ⟨max m t, by rw [h1, hm, ht, coe_max]⟩

/-- The row maximum is real. -/
theorem rmax_real (Q C : Fin 8192 → Fin 256 → EReal) (W : Fin 256 → Fin 256 → EReal) (n : Fin 8192)
    (s : Fin 8192 → ℝ) (hs : ∀ m, S Q C W n m = (s m : EReal)) : ∃ r : ℝ, rmax Q C W n = (r : EReal) := by
  obtain ⟨t, ht⟩ := Cert.Lib.SoftmaxReal.fold_max_real (Finset.univ : Finset (Fin 8192)) Finset.univ_nonempty ⊥
    bot_lt_top (fun m => S Q C W n m) fun i _ => ⟨s i, hs i⟩
  exact ⟨t, by unfold rmax; rw [ht, max_eq_right bot_le]⟩

/-- The first tile is entered with coefficient zero: the exponential of the least element minus anything. -/
theorem acoef_zero (Q C : Fin 8192 → Fin 256 → EReal) (W : Fin 256 → Fin 256 → EReal) (n : Fin 8192) :
    acoef Q C W n 0 = 0 := by
  unfold acoef
  have h : mprev Q C W n 0 = ⊥ := rfl
  rw [h, EReal.bot_sub, Ideal.exp_bot]

theorem acoef_succ (Q C : Fin 8192 → Fin 256 → EReal) (W : Fin 256 → Fin 256 → EReal) (n : Fin 8192)
    (μ : ℕ → ℝ) (hμ : ∀ j, mrun Q C W n j = (μ j : EReal)) (j : ℕ) :
    acoef Q C W n (j + 1) = ((Real.exp (μ j - μ (j + 1)) : ℝ) : EReal) := by
  unfold acoef
  have h : mprev Q C W n (j + 1) = mrun Q C W n j := rfl
  rw [h, hμ, hμ, ← EReal.coe_sub, Ideal.exp_coe]

theorem pexp_coe (Q C : Fin 8192 → Fin 256 → EReal) (W : Fin 256 → Fin 256 → EReal) (n : Fin 8192)
    (s : Fin 8192 → ℝ) (hs : ∀ m, S Q C W n m = (s m : EReal))
    (μ : ℕ → ℝ) (hμ : ∀ j, mrun Q C W n j = (μ j : EReal)) (j : ℕ) (i : Fin 512) :
    pexp Q C W n j i = ((Real.exp (s (col j i) - μ j) : ℝ) : EReal) := by
  unfold pexp
  rw [hs, hμ, ← EReal.coe_sub, Ideal.exp_coe]

/-! ## The sixteen tiles -/

/-- The columns of tile j: the 512 columns from 512 j on for j < 16, none beyond. -/
def tile (j : ℕ) : Finset (Fin 8192) := if j < 16 then Finset.univ.image (col j) else ∅

theorem col_val (j : ℕ) (hj : j < 16) (i : Fin 512) : (col j i).val = 512 * j + i.val := by
  have hi := i.isLt
  show (512 * j + i.val) % 8192 = 512 * j + i.val
  omega

theorem col_injective (j : ℕ) (hj : j < 16) : Function.Injective (col j) := by
  intro a b h
  have h1 := congrArg Fin.val h
  rw [col_val j hj, col_val j hj] at h1
  exact Fin.ext (by omega)

/-- A sum over tile j is the sum over its 512 positions. -/
theorem sum_tile (j : ℕ) (hj : j < 16) (f : Fin 8192 → ℝ) : ∑ k ∈ tile j, f k = ∑ i : Fin 512, f (col j i) := by
  unfold tile
  rw [if_pos hj, Finset.sum_image fun a _ b _ h => col_injective j hj h]

theorem tile_disjoint (i j : ℕ) (h : i ≠ j) : Disjoint (tile i) (tile j) := by
  unfold tile
  by_cases hi : i < 16
  · by_cases hj : j < 16
    · rw [if_pos hi, if_pos hj, Finset.disjoint_left]
      intro x hx hx'
      obtain ⟨a, _, ha⟩ := Finset.mem_image.mp hx
      obtain ⟨b, _, hb⟩ := Finset.mem_image.mp hx'
      have h1 := congrArg Fin.val (ha.trans hb.symm)
      rw [col_val i hi, col_val j hj] at h1
      have h2 := a.isLt
      have h3 := b.isLt
      omega
    · rw [if_neg hj]; exact Finset.disjoint_empty_right _
  · rw [if_neg hi]; exact Finset.disjoint_empty_left _

/-- The sixteen tiles cover every column: column m is position m % 512 of tile m / 512. -/
theorem seen_tile : OnlineSoftmax.seen tile 16 = Finset.univ := by
  apply Finset.eq_univ_of_forall
  intro m
  have hm := m.isLt
  unfold OnlineSoftmax.seen
  rw [Finset.mem_biUnion]
  have hj : m.val / 512 < 16 := by omega
  refine ⟨m.val / 512, Finset.mem_range.mpr hj, ?_⟩
  unfold tile
  rw [if_pos hj, Finset.mem_image]
  refine ⟨⟨m.val % 512, Nat.mod_lt _ (by norm_num)⟩, Finset.mem_univ _, Fin.ext ?_⟩
  rw [col_val _ hj]
  show 512 * (m.val / 512) + m.val % 512 = m.val
  omega

/-! ## The real recurrence the kernel follows -/

/-- The sequence x 0 = 0, x (j + 1) = a j · x j + d j. -/
def lin (a d : ℕ → ℝ) : ℕ → ℝ
  | 0 => 0
  | j + 1 => a j * lin a d j + d j

/-- The rescaling coefficients: 0 on the first tile, exp (μ j - μ (j + 1)) on tile j + 1. -/
def coef (μ : ℕ → ℝ) : ℕ → ℝ
  | 0 => 0
  | j + 1 => Real.exp (μ j - μ (j + 1))

theorem lin_succ (a d : ℕ → ℝ) (j : ℕ) : lin a d (j + 1) = a j * lin a d j + d j := rfl

theorem coef_succ (μ : ℕ → ℝ) (j : ℕ) : coef μ (j + 1) = Real.exp (μ j - μ (j + 1)) := rfl

theorem lin_one (μ d : ℕ → ℝ) : lin (coef μ) d (0 + 1) = d 0 := by
  show coef μ 0 * lin (coef μ) d 0 + d 0 = d 0
  show (0 : ℝ) * 0 + d 0 = d 0
  rw [zero_mul, zero_add]

theorem sum_pexp (Q C : Fin 8192 → Fin 256 → EReal) (W : Fin 256 → Fin 256 → EReal) (n : Fin 8192)
    (s : Fin 8192 → ℝ) (hs : ∀ m, S Q C W n m = (s m : EReal))
    (μ : ℕ → ℝ) (hμ : ∀ j, mrun Q C W n j = (μ j : EReal)) (j : ℕ) (hj : j < 16) :
    ∑ i : Fin 512, pexp Q C W n j i = ((OnlineSoftmax.den s (tile j) (μ j) : ℝ) : EReal) := by
  unfold OnlineSoftmax.den
  rw [sum_tile j hj, coe_sum]
  exact Finset.sum_congr rfl fun i _ => pexp_coe Q C W n s hs μ hμ j i

theorem sum_pexp_kcos (Q C : Fin 8192 → Fin 256 → EReal) (W : Fin 256 → Fin 256 → EReal) (n : Fin 8192)
    (s v : Fin 8192 → ℝ) (hs : ∀ m, S Q C W n m = (s m : EReal)) (hv : ∀ m, kcos Q C n m = (v m : EReal))
    (μ : ℕ → ℝ) (hμ : ∀ j, mrun Q C W n j = (μ j : EReal)) (j : ℕ) (hj : j < 16) :
    ∑ i : Fin 512, pexp Q C W n j i * kcos Q C n (col j i)
      = ((OnlineSoftmax.num s v (tile j) (μ j) : ℝ) : EReal) := by
  unfold OnlineSoftmax.num
  rw [sum_tile j hj, coe_sum]
  exact Finset.sum_congr rfl fun i _ => by rw [pexp_coe Q C W n s hs μ hμ j i, hv, EReal.coe_mul]

/-- After tile j the kernel's denominator and numerator are the real recurrence's. -/
theorem lrun_nrun_coe (Q C : Fin 8192 → Fin 256 → EReal) (W : Fin 256 → Fin 256 → EReal) (n : Fin 8192)
    (s v : Fin 8192 → ℝ) (hs : ∀ m, S Q C W n m = (s m : EReal)) (hv : ∀ m, kcos Q C n m = (v m : EReal))
    (μ : ℕ → ℝ) (hμ : ∀ j, mrun Q C W n j = (μ j : EReal)) (j : ℕ) (hj : j < 16) :
    lrun Q C W n j = ((lin (coef μ) (fun j => OnlineSoftmax.den s (tile j) (μ j)) (j + 1) : ℝ) : EReal) ∧
    nrun Q C W n j = ((lin (coef μ) (fun j => OnlineSoftmax.num s v (tile j) (μ j)) (j + 1) : ℝ) : EReal) := by
  induction j with
  | zero =>
    have hl0 : lrun Q C W n 0 = acoef Q C W n 0 * 0 + ∑ i : Fin 512, pexp Q C W n 0 i := rfl
    have hn0 : nrun Q C W n 0
        = acoef Q C W n 0 * 0 + ∑ i : Fin 512, pexp Q C W n 0 i * kcos Q C n (col 0 i) := rfl
    refine ⟨?_, ?_⟩
    · rw [hl0, mul_zero, zero_add (∑ i : Fin 512, pexp Q C W n 0 i), sum_pexp Q C W n s hs μ hμ 0 hj, lin_one]
    · rw [hn0, mul_zero, zero_add (∑ i : Fin 512, pexp Q C W n 0 i * kcos Q C n (col 0 i)),
        sum_pexp_kcos Q C W n s v hs hv μ hμ 0 hj, lin_one]
  | succ j ih =>
    obtain ⟨ihl, ihn⟩ := ih (by omega)
    have hl1 : lrun Q C W n (j + 1)
        = acoef Q C W n (j + 1) * lrun Q C W n j + ∑ i : Fin 512, pexp Q C W n (j + 1) i := rfl
    have hn1 : nrun Q C W n (j + 1)
        = acoef Q C W n (j + 1) * nrun Q C W n j
          + ∑ i : Fin 512, pexp Q C W n (j + 1) i * kcos Q C n (col (j + 1) i) := rfl
    refine ⟨?_, ?_⟩
    · rw [hl1, ihl, acoef_succ Q C W n μ hμ j, sum_pexp Q C W n s hs μ hμ (j + 1) hj, lin_succ _ _ (j + 1),
        coef_succ, EReal.coe_add, EReal.coe_mul]
    · rw [hn1, ihn, acoef_succ Q C W n μ hμ j, sum_pexp_kcos Q C W n s v hs hv μ hμ (j + 1) hj,
        lin_succ _ _ (j + 1), coef_succ, EReal.coe_add, EReal.coe_mul]

/-! ## The two sides as the same real -/

/-- The kernel's row value is the softmax-weighted sum of the cosines, relative to any real point M. -/
theorem krow_coe (Q C : Fin 8192 → Fin 256 → EReal) (W : Fin 256 → Fin 256 → EReal) (n : Fin 8192)
    (s v : Fin 8192 → ℝ) (hs : ∀ m, S Q C W n m = (s m : EReal)) (hv : ∀ m, kcos Q C n m = (v m : EReal))
    (μ : ℕ → ℝ) (hμ : ∀ j, mrun Q C W n j = (μ j : EReal)) (M : ℝ) :
    krow Q C W n
      = ((∑ k : Fin 8192, Real.exp (s k - M) / (∑ j : Fin 8192, Real.exp (s j - M)) * v k : ℝ) : EReal) := by
  obtain ⟨hl, hn⟩ := lrun_nrun_coe Q C W n s v hs hv μ hμ 15 (by norm_num)
  have hrun := OnlineSoftmax.run s v tile tile_disjoint μ (coef μ)
    (lin (coef μ) fun j => OnlineSoftmax.den s (tile j) (μ j))
    (lin (coef μ) fun j => OnlineSoftmax.num s v (tile j) (μ j))
    rfl (fun _ => rfl) (fun _ => rfl) (fun _ => rfl) 15
  have hres := OnlineSoftmax.run_result s v tile tile_disjoint μ (coef μ)
    (lin (coef μ) fun j => OnlineSoftmax.den s (tile j) (μ j))
    (lin (coef μ) fun j => OnlineSoftmax.num s v (tile j) (μ j))
    rfl (fun _ => rfl) (fun _ => rfl) (fun _ => rfl) 15 Finset.univ_nonempty seen_tile M
  have hpos : 0 < lin (coef μ) (fun j => OnlineSoftmax.den s (tile j) (μ j)) (15 + 1) := by
    rw [hrun.1, seen_tile]
    exact OnlineSoftmax.den_pos s Finset.univ_nonempty _
  unfold krow
  rw [hl, hn, Ideal.div_coe hpos.ne', ← EReal.coe_mul, mul_one_div, hres]

/-- The reference's row value is the same sum, M being the row maximum. -/
theorem rrowsum_coe (Q C : Fin 8192 → Fin 256 → EReal) (W : Fin 256 → Fin 256 → EReal) (n : Fin 8192)
    (s v : Fin 8192 → ℝ) (hs : ∀ m, S Q C W n m = (s m : EReal)) (hv : ∀ m, rcos Q C n m = (v m : EReal))
    (M : ℝ) (hM : rmax Q C W n = (M : EReal)) :
    rrowsum Q C W n
      = ((∑ k : Fin 8192, Real.exp (s k - M) / (∑ j : Fin 8192, Real.exp (s j - M)) * v k : ℝ) : EReal) := by
  have hexp : ∀ m, rexp Q C W n m = ((Real.exp (s m - M) : ℝ) : EReal) := fun m => by
    unfold rexp
    rw [hs, hM, ← EReal.coe_sub, Ideal.exp_coe]
  have hden : rden Q C W n = ((∑ j : Fin 8192, Real.exp (s j - M) : ℝ) : EReal) := by
    unfold rden
    rw [zero_add, coe_sum]
    exact Finset.sum_congr rfl fun m _ => hexp m
  have hpos : 0 < ∑ j : Fin 8192, Real.exp (s j - M) :=
    Finset.sum_pos (fun _ _ => Real.exp_pos _) Finset.univ_nonempty
  unfold rrowsum
  rw [coe_sum]
  refine Finset.sum_congr rfl fun m _ => ?_
  unfold rattn
  rw [hexp, hden, Ideal.div_coe hpos.ne', hv, ← EReal.coe_mul, ← EReal.coe_mul, mul_one_div]

/-- Row `n`: the kernel's value equals the reference's. -/
theorem krow_eq_rrowsum (Q C : Fin 8192 → Fin 256 → EReal) (W : Fin 256 → Fin 256 → EReal)
    (hQ : ∀ n k, ∃ r : ℝ, Q n k = (r : EReal)) (hC : ∀ n k, ∃ r : ℝ, C n k = (r : EReal))
    (hW : ∀ e k, ∃ r : ℝ, W e k = (r : EReal))
    (hQn : ∀ n, 0 < sq Q n) (hCn : ∀ n, 0 < sq C n) (n : Fin 8192) :
    krow Q C W n = rrowsum Q C W n := by
  choose s hs using fun m => S_real Q C W hQ hC hW n m
  choose v hv using fun m => rcos_real Q C hQ hC hQn hCn n m
  have hkv : ∀ m, kcos Q C n m = (v m : EReal) := fun m => by rw [kcos_eq_rcos Q C hQn hCn, hv]
  choose μ hμ using fun j => mrun_real Q C W n s hs j
  obtain ⟨M, hM⟩ := rmax_real Q C W n s hs
  rw [krow_coe Q C W n s v hs hkv μ hμ M, rrowsum_coe Q C W n s v hs hv M hM]

/-- The two results agree. -/
theorem kresult_eq_rresult (Q C : Fin 8192 → Fin 256 → EReal) (W : Fin 256 → Fin 256 → EReal)
    (hQ : ∀ n k, ∃ r : ℝ, Q n k = (r : EReal)) (hC : ∀ n k, ∃ r : ℝ, C n k = (r : EReal))
    (hW : ∀ e k, ∃ r : ℝ, W e k = (r : EReal))
    (hQn : ∀ n, 0 < sq Q n) (hCn : ∀ n, 0 < sq C n) :
    kresult Q C W = rresult Q C W := by
  unfold kresult rresult
  exact congrArg tail (Finset.sum_congr rfl fun n _ => krow_eq_rrowsum Q C W hQ hC hW hQn hCn n)

end Cert.Math

end
-- ==== Proof.Blocks.lean ====
/-
  The input blocks of the kernel at a grid point, read at a coordinate: grid point `t` is query tile `t / 16` and
  context tile `t % 16`; a query block's row `r` is row `1024 (t / 16) + r` of the query array, a context block's
  row `s` is row `512 (t % 16) + s` of the context array, the weight block is the whole weight array, and the fourth
  window's array is the column of reciprocal square roots of the context rows' sums of squares, computed before the
  region.
-/
import proofs.«103096_j26096221291172_2_alg».proof.Proof.Gen.KernelIdeal.Frame
import proofs.«103096_j26096221291172_2_alg».proof.Proof.LibColumn
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The global query row of row `r` of the query block at point `t`. -/
def qrow (t : Fin cfg0.N) (r : Fin 1024) : Fin 8192 :=
  ⟨1024 * (t.val / 16) + r.val, by have := t.isLt; have hN : cfg0.N = 128 := N_0; omega⟩

/-- The global context row of row `s` of the context block at point `t`. -/
def crow (t : Fin cfg0.N) (s : Fin 512) : Fin 8192 :=
  ⟨512 * (t.val % 16) + s.val, by omega⟩

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val % 16 ∧ win0_3.index t 1 = 0 :=
  (by decide +kernel : ∀ t : Fin grid0.N, win0_3.index t 0 = t.val % 16 ∧ win0_3.index t 1 = 0)
theorem idx4 : ∀ t : Fin cfg0.N, win0_4.index t 0 = t.val / 16 ∧ win0_4.index t 1 = 0 :=
  (by decide +kernel : ∀ t : Fin grid0.N, win0_4.index t 0 = t.val / 16 ∧ win0_4.index t 1 = 0)

/-- The query block at point `t`, at `(r, k)`. -/
theorem iblk0_apply (c : Dev nD) (t : Fin cfg0.N) (r : Fin 1024) (k : Fin 256) :
    (iblk m c 0 t : Vec F S1024x256 .f32) (ix2 r k) = V m c main_arg0 (ix2 (qrow t r) k) := by
  have hi := idx0 t
  unfold iblk
  rw [View.read_apply]
  show V m c main_arg0 _ = V m c main_arg0 _
  congr 1
  funext a
  apply Fin.ext
  match a with
  | ⟨0, _⟩ => show win0_0.index t 0 * 1024 + 1 * r.val = 1024 * (t.val / 16) + r.val; rw [hi.1]; omega
  | ⟨1, _⟩ => show win0_0.index t 1 * 256 + 1 * k.val = k.val; rw [hi.2]; omega

/-- The context block at point `t`, at `(s, k)`. -/
theorem iblk1_apply (c : Dev nD) (t : Fin cfg0.N) (s : Fin 512) (k : Fin 256) :
    (iblk m c 1 t : Vec F S512x256 .f32) (ix2 s k) = V m c main_arg1 (ix2 (crow t s) k) := by
  have hi := idx1 t
  unfold iblk
  rw [View.read_apply]
  show V m c main_arg1 _ = V m c main_arg1 _
  congr 1
  funext a
  apply Fin.ext
  match a with
  | ⟨0, _⟩ => show win0_1.index t 0 * 512 + 1 * s.val = 512 * (t.val % 16) + s.val; rw [hi.1]; omega
  | ⟨1, _⟩ => show win0_1.index t 1 * 256 + 1 * k.val = k.val; rw [hi.2]; omega

/-- The weight block at any point is the weight array. -/
theorem iblk2_apply (c : Dev nD) (t : Fin cfg0.N) (e : Fin 256) (k : Fin 256) :
    (iblk m c 2 t : Vec F S256x256 .f32) (ix2 e k) = V m c main_arg2 (ix2 e k) := by
  have hi := idx2 t
  unfold iblk
  rw [View.read_apply]
  show V m c main_arg2 _ = V m c main_arg2 _
  congr 1
  funext a
  apply Fin.ext
  match a with
  | ⟨0, _⟩ => show win0_2.index t 0 * 256 + 1 * e.val = e.val; rw [hi.1]; omega
  | ⟨1, _⟩ => show win0_2.index t 1 * 256 + 1 * k.val = k.val; rw [hi.2]; omega

/-- The reciprocal-norm block at point `t`, at `(s, 0)`. -/
theorem iblk3_apply (c : Dev nD) (t : Fin cfg0.N) (s : Fin 512) (u : Fin 1) :
    (iblk m c 3 t : Vec F S512x1 .f32) (ix2 s u) = V m c main_v3 (ix2 (crow t s) (0 : Fin 1)) := by
  have hi := idx3 t
  unfold iblk
  rw [View.read_apply]
  show V m c main_v3 _ = V m c main_v3 _
  congr 1
  funext a
  apply Fin.ext
  have hu : u.val = 0 := by omega
  match a with
  | ⟨0, _⟩ => show win0_3.index t 0 * 512 + 1 * s.val = 512 * (t.val % 16) + s.val; rw [hi.1]; omega
  | ⟨1, _⟩ => show win0_3.index t 1 * 1 + 1 * u.val = 0; rw [hi.2]; omega

end Cert.KernelIdeal.Blocks

end
-- ==== Proof.Pieces.lean ====
/-
  What one grid point of the online-softmax kernel leaves behind, as a composition of the body's pure steps.

  The kernel walks a row tile of the logits in 16 column tiles and carries five blocks from one column tile to the
  next: the running row maximum, the running denominator, the running numerator, the normalised query block and the
  linear image of the query block.  At each point exactly one of three things happens:

    * first column tile: the normalised query block and its linear image are computed from the query block and the
      linear layer, the maximum is reset to -∞ and the two sums to 0, and then the tile is absorbed;
    * a middle column tile: the tile is absorbed into the carried maximum, denominator and numerator;
    * last column tile: the tile is absorbed and the row's value, numerator / denominator, is written out.

  "Absorbing" a tile replaces the maximum m by m' = max m (tile maximum), the denominator l by
  exp (m - m') · l + ∑ exp (logit - m'), and the numerator n by exp (m - m') · n + ∑ exp (logit - m') · cosine.
  Each lemma below reads off one carried block (or the output block) after the point as that composition, for any
  float type; every block is stored whole, so the last store of a block is what it holds.
-/
import proofs.«103096_j26096221291172_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- Every block is read and stored from its origin: the offset (0, 0), however the zeros are written. -/
theorem hz : (![0, 0] : Fin 2 → Nat) = fun _ => 0 := funext fun a => by fin_cases a <;> rfl

/-! ## The first column tile

The query block is normalised and mapped through the linear layer, the maximum starts at -∞ and the two sums at 0;
the tile is then absorbed exactly as a middle tile is, reading those five blocks back. -/

/-- The normalised query block: each row of the query block times the reciprocal square root of its sum of squares, rounded to bf16. -/
theorem sout0_A_3_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : cond0_0 i) (hc1 : ¬cond0_1 i)
    (x0 : Vec F S1024x256 .f32) (x1 : Vec F S512x256 .f32) (x2 : Vec F S256x256 .f32) (x3 : Vec F S512x1 .f32) :
    sout0_A_3 c i arg2 harg2 arg3 harg3 arg4 harg4 arg5 harg5 arg6 harg6 arg7 harg7 arg8 harg8 arg9 harg9 arg10 harg10 arg11 harg11 hc0 hc1 x0 x1 x2 x3
      = k0_pay4 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_unit_zero (S := S1024x256) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The linear query block: the query block times the transposed linear layer. -/
theorem sout0_A_4_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : cond0_0 i) (hc1 : ¬cond0_1 i)
    (x0 : Vec F S1024x256 .f32) (x1 : Vec F S512x256 .f32) (x2 : Vec F S256x256 .f32) (x3 : Vec F S512x1 .f32) :
    sout0_A_4 c i arg2 harg2 arg3 harg3 arg4 harg4 arg5 harg5 arg6 harg6 arg7 harg7 arg8 harg8 arg9 harg9 arg10 harg10 arg11 harg11 hc0 hc1 x0 x1 x2 x3
      = k0_pay5 x0 x2 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_unit_zero (S := S1024x256) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The running maximum after the first tile: -∞ against the tile's row maxima, the logits taken with the linear query block just computed. The reset to -∞ lies under this store and is not seen. -/
theorem sout0_A_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : cond0_0 i) (hc1 : ¬cond0_1 i)
    (x0 : Vec F S1024x256 .f32) (x1 : Vec F S512x256 .f32) (x2 : Vec F S256x256 .f32) (x3 : Vec F S512x1 .f32) :
    sout0_A_0 c i arg2 harg2 arg3 harg3 arg4 harg4 arg5 harg5 arg6 harg6 arg7 harg7 arg8 harg8 arg9 harg9 arg10 harg10 arg11 harg11 hc0 hc1 x0 x1 x2 x3
      = k0_pay2 (k0_pay11 x1 (k0_pay5 x0 x2) k0_pay6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) hz, View.readCov_unit_zero (S := S1024x256) arg11.view hz,
    View.readCov_unit_zero (S := S1024x1) arg7.view hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The denominator after the first tile: exp (-∞ - new maximum) times 0, plus the row sums of exp (logit - new maximum). The reset to 0 lies under this store and is not seen. -/
theorem sout0_A_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : cond0_0 i) (hc1 : ¬cond0_1 i)
    (x0 : Vec F S1024x256 .f32) (x1 : Vec F S512x256 .f32) (x2 : Vec F S256x256 .f32) (x3 : Vec F S512x1 .f32) :
    sout0_A_1 c i arg2 harg2 arg3 harg3 arg4 harg4 arg5 harg5 arg6 harg6 arg7 harg7 arg8 harg8 arg9 harg9 arg10 harg10 arg11 harg11 hc0 hc1 x0 x1 x2 x3
      = k0_pay14 x1 (k0_pay5 x0 x2) k0_pay6 k0_pay6 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) hz, View.readCov_unit_zero (S := S1024x256) arg11.view hz,
    View.readCov_unit_zero (S := S1024x1) arg7.view hz, View.readCov_unit_zero (S := S1024x1) arg8.view hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The numerator after the first tile: exp (-∞ - new maximum) times 0, plus the row sums of exp (logit - new maximum) times the tile's cosines, taken with the normalised query block just computed. The reset to 0 lies under this store and is not seen. -/
theorem sout0_A_2_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : cond0_0 i) (hc1 : ¬cond0_1 i)
    (x0 : Vec F S1024x256 .f32) (x1 : Vec F S512x256 .f32) (x2 : Vec F S256x256 .f32) (x3 : Vec F S512x1 .f32) :
    sout0_A_2 c i arg2 harg2 arg3 harg3 arg4 harg4 arg5 harg5 arg6 harg6 arg7 harg7 arg8 harg8 arg9 harg9 arg10 harg10 arg11 harg11 hc0 hc1 x0 x1 x2 x3
      = k0_pay1 (k0_pay9 x1 x3 (k0_pay4 x0)) (k0_pay12 x1 (k0_pay5 x0 x2) k0_pay6 k0_pay6)
          (k0_pay13 x1 (k0_pay5 x0 x2) k0_pay6) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1024x1) hz, View.readCov_unit_zero (S := S1024x256) arg10.view hz,
    View.readCov_unit_zero (S := S1024x256) arg11.view hz, View.readCov_unit_zero (S := S1024x1) arg7.view hz, View.readCov_unit_zero (S := S1024x1) arg9.view hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-! ## A middle column tile -/

/-- The running maximum after a middle tile: the carried maximum against the tile's row maxima, the tile's logits being the carried linear query block times the transposed context block. -/
theorem sout0_B_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : ¬cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay11 x1 xs4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The denominator after a middle tile: exp (old maximum - new maximum) times the carried denominator, plus the row sums of exp (logit - new maximum). -/
theorem sout0_B_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : ¬cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay14 x1 xs4 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The numerator after a middle tile: exp (old maximum - new maximum) times the carried numerator, plus the row sums of exp (logit - new maximum) times the tile's cosines, a cosine being the carried normalised query block against the context block scaled row by row by its input column of inverse norms. -/
theorem sout0_B_2_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : ¬cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 (k0_pay9 x1 x3 xs3) (k0_pay12 x1 xs4 xs0 xs0) (k0_pay13 x1 xs4 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-! ## The last column tile -/

/-- The running maximum after the last tile: the carried maximum against the tile's row maxima, the tile's logits being the carried linear query block times the transposed context block. -/
theorem sout0_C_0_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay2 (k0_pay11 x1 xs4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The denominator after the last tile: exp (old maximum - new maximum) times the carried denominator, plus the row sums of exp (logit - new maximum). -/
theorem sout0_C_1_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay14 x1 xs4 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The numerator after the last tile: exp (old maximum - new maximum) times the carried numerator, plus the row sums of exp (logit - new maximum) times the tile's cosines, a cosine being the carried normalised query block against the context block scaled row by row by its input column of inverse norms. -/
theorem sout0_C_2_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4 = k0_pay1 (k0_pay9 x1 x3 xs3) (k0_pay12 x1 xs4 xs0 xs0) (k0_pay13 x1 xs4 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S1024x1) hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

/-- The row values written out at the last tile: the numerator just stored over the denominator just stored, both
    read back whole after this tile has been absorbed. -/
theorem out0_C_4_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S512x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .bf16) (harg10 : arg10.IsWhole) (arg11 : Memref sig .tc .vmem S1024x256 .f32) (harg11 : arg11.IsWhole) (hc0 : ¬cond0_0 i) (hc1 : cond0_1 i)
    (x0 : Vec F S1024x256 .f32) (x1 : Vec F S512x256 .f32) (x2 : Vec F S256x256 .f32) (x3 : Vec F S512x1 .f32) (xs0 : Vec F S1024x1 .f32) (xs1 : Vec F S1024x1 .f32) (xs2 : Vec F S1024x1 .f32) (xs3 : Vec F S1024x256 .bf16) (xs4 : Vec F S1024x256 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay3 (k0_pay1 (k0_pay9 x1 x3 xs3) (k0_pay12 x1 xs4 xs0 xs0) (k0_pay13 x1 xs4 xs0) xs2)
          (k0_pay14 x1 xs4 xs0 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S1024x1) hz, View.readCov_unit_zero (S := S1024x1) arg9.view hz,
    View.readCov_unit_zero (S := S1024x1) arg8.view hz]
  simp only [View.readAt_eq_ld, harg2.read_unread, harg3.read_unread, harg4.read_unread, harg5.read_unread, harg7.read_unread, harg8.read_unread, harg9.read_unread, harg10.read_unread, harg11.read_unread, View.ld_unit_zero (S := S1024x256) hz, View.ld_unit_zero (S := S512x256) hz, View.ld_unit_zero (S := S256x256) hz, View.ld_unit_zero (S := S512x1) hz, View.ld_unit_zero (S := S1024x1) hz]

end Cert.KernelIdeal.Pieces

end
-- ==== Proof.Payload.lean ====
/-
  The kernel body's payloads read at an index, at the extended reals: each value the body stores or carries, as an
  expression in the elements of the vectors it was computed from. Rows are r : Fin 1024, feature columns k e : Fin 256,
  context columns of a tile s : Fin 512, and the unit column u : Fin 1.

  The two matrix products are sums over the 256 features; the transposed right operand is folded into the sum. A lane
  maximum is the fold of max from the bottom element over a row, a lane sum the sum over a row.
-/
import proofs.«103096_j26096221291172_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«103096_j26096221291172_2_alg».proof.Proof.LibColumn
import proofs.«103096_j26096221291172_2_alg».proof.Proof.LibSoftmaxReal

noncomputable section

namespace Cert.KernelIdeal.Pay

open Idealize.ShloMosaic Idealize.ShloMosaic.ValueIdx Cert.KernelIdeal Cert.KernelIdeal.Gen

/-! ## Small readings -/

/-- The reciprocal square root of a vector at an index is that of the element. -/
theorem rsqrt_apply {s : Shape} {φ : FTy} (x : FVec Ideal s φ) (i : s.Idx) : rsqrt x i = Ideal.rsqrt (x i) := rfl

/-- A lane sum over the columns, kept as a unit column, at `(r, u)`: the sum over row `r`. -/
theorem rowSum_apply {m : ℕ} (z : FVec Ideal ⟨2, ![1024, m]⟩ .f32)
    (h : (⟨2, ![1024, m]⟩ : Shape).Reduces [1] S1024) (hφ : FKind.Formats .f32)
    (hacc : (0x00000000#32 : BitVec 32) = 0x00000000#32) (hc : S1024.ShapeCasts S1024x1) (r : Fin 1024) (u : Fin 1) :
    shapeCast S1024x1 (multiReduction (F := Ideal) .add [1] S1024 z 0x00000000#32 h hφ hacc) hc (ix2 r u)
      = ∑ j : Fin m, z (ix2 r j) :=
  (Cert.Lib.shapeCast_a_a1_apply _ hc r u).trans (Cert.Lib.multiReduction_add_row z h hφ hacc r)

/-- A lane maximum over the columns, kept as a unit column, at `(r, u)`: the fold of `max` from `⊥` over row `r`. -/
theorem rowMax_apply {m : ℕ} (z : FVec Ideal ⟨2, ![1024, m]⟩ .f32)
    (h : (⟨2, ![1024, m]⟩ : Shape).Reduces [1] S1024) (hφ : FKind.Formats .f32)
    (hacc : (0xFF800000#32 : BitVec 32) = 0xFF800000#32) (hc : S1024.ShapeCasts S1024x1) (r : Fin 1024) (u : Fin 1) :
    shapeCast S1024x1 (multiReduction (F := Ideal) .maximumf [1] S1024 z 0xFF800000#32 h hφ hacc) hc (ix2 r u)
      = (Finset.univ : Finset (Fin m)).fold max ⊥ fun j => z (ix2 r j) := by
  refine (Cert.Lib.shapeCast_a_a1_apply _ hc r u).trans ?_
  refine (Cert.Lib.multiReduction_max_row z h hφ hacc r).trans ?_
  rw [Cert.Lib.SoftmaxReal.ofBits_negInf_f32]

/-! ## The stores of the last statements -/

theorem pay2_apply (v18 : Vec Ideal S1024x1 .f32) (y : S1024x1.Idx) : k0_pay2 (F := Ideal) v18 y = v18 y := by
  unfold k0_pay2
  exact congrFun (shapeCast_self v18 _) y

theorem pay3_apply (v48 v49 : Vec Ideal S1024x1 .f32) (y : S1024x1.Idx) :
    k0_pay3 (F := Ideal) v48 v49 y = Ideal.div (v48 y) (v49 y) := rfl

theorem pay1_apply (v11 : Vec Ideal S1024x512 .f32) (v21 : Vec Ideal S1024x1 .f32) (v24 : Vec Ideal S1024x512 .f32)
    (v33 : Vec Ideal S1024x1 .f32) (r : Fin 1024) (u : Fin 1) :
    k0_pay1 (F := Ideal) v11 v21 v24 v33 (ix2 r u)
      = v21 (ix2 r u) * v33 (ix2 r u) + ∑ s : Fin 512, v24 (ix2 r s) * v11 (ix2 r s) := by
  unfold k0_pay1
  refine (congrFun (shapeCast_self _ _) (ix2 r u)).trans ?_
  refine (addf_apply _ _ _).trans ?_
  refine congrArg₂ (· + ·) (mulf_apply v21 v33 (ix2 r u)) ?_
  exact rowSum_apply (mulf v24 v11) _ _ _ _ r u

/-! ## The initial values -/

theorem pay6_apply (y : S1024x1.Idx) : k0_pay6 (F := Ideal) y = ⊥ := by
  unfold k0_pay6
  refine (congrFun (shapeCast_self _ _) y).trans ?_
  exact Cert.Lib.SoftmaxReal.ofBits_negInf_f32

theorem pay7_apply (y : S1024x1.Idx) : k0_pay7 (F := Ideal) y = 0 := by
  unfold k0_pay7
  refine (congrFun (shapeCast_self _ _) y).trans ?_
  exact Ideal.ofBits_zero_f32

theorem pay8_apply (y : S1024x1.Idx) : k0_pay8 (F := Ideal) y = 0 := by
  unfold k0_pay8
  refine (congrFun (shapeCast_self _ _) y).trans ?_
  exact Ideal.ofBits_zero_f32

/-! ## The two matrix products

A product whose dimension numbers contract the left operand's columns with the right operand's rows, into the zero
vector: at `(r, c)` the sum over the contracted coordinate `k` of the left operand at `(r, k)` times the right at
`(k, c)`. The contraction's index set has one axis of extent 256, and the sum is carried along that identification. -/

/-- A vector transposed by `[1, 0]` reads, at `(a, b)`, the operand at `(b, a)`. -/
theorem transpose_swap_apply {α : Type} {n m : ℕ} (x : (⟨2, ![n, m]⟩ : Shape).Idx → α)
    (h : (⟨2, ![n, m]⟩ : Shape).Transposes [1, 0] ⟨2, ![m, n]⟩) (a : Fin m) (b : Fin n) :
    transpose ⟨2, ![m, n]⟩ [1, 0] x h (ix2 a b) = x (ix2 b a) :=
  transpose_apply [1, 0] x h (ix2 a b) (ix2 b a) (fun c => match c with
    | ⟨0, _⟩ => rfl
    | ⟨1, _⟩ => rfl)

theorem lhs512_row (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl

theorem rhs512_col (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- The product of a `[1024, 256]` by a `[256, 512]` vector into the zero vector, at `(r, s)`. -/
theorem matmul512_apply {φ₁ φ₂ : FTy} (prec : Option ContractPrecision) (v : FVec Ideal S1024x256 φ₁)
    (w : FVec Ideal S256x512 φ₂) (r : Fin 1024) (s : Fin 512) :
    matmul dot_S1024x256_S256x512_S1024x512_1_0_0_1_n_n prec v w (constant (F := Ideal) S1024x512 .f32 0x00000000#32) (ix2 r s)
      = ∑ k : Fin 256, v (ix2 r k) * w (ix2 k s) := by
  refine (Ideal.matmul_constant_zero_apply dot_S1024x256_S256x512_S1024x512_1_0_0_1_n_n prec v w (ix2 r s)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r s)
      ((contrEquiv1 dot_S1024x256_S256x512_S1024x512_1_0_0_1_n_n 256 rfl rfl).symm k) = ix2 r k :=
    funext fun a => Fin.ext (by
      match a with
      | ⟨0, _⟩ => exact lhs512_row _ _
      | ⟨1, _⟩ => exact (dot_S1024x256_S256x512_S1024x512_1_0_0_1_n_n.lhsIdx_val_of_single rfl _ _).trans hk)
  have er : dot_S1024x256_S256x512_S1024x512_1_0_0_1_n_n.rhsIdx (ix2 r s)
      ((contrEquiv1 dot_S1024x256_S256x512_S1024x512_1_0_0_1_n_n 256 rfl rfl).symm k) = ix2 k s :=
    funext fun a => Fin.ext (by
      match a with
      | ⟨0, _⟩ => exact (dot_S1024x256_S256x512_S1024x512_1_0_0_1_n_n.rhsIdx_val_of_single rfl _ _).trans hk
      | ⟨1, _⟩ => exact rhs512_col _ _)
  rw [el, er]

theorem lhs256_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

theorem rhs256_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product of a `[1024, 256]` by a `[256, 256]` vector into the zero vector, at `(r, e)`. -/
theorem matmul256_apply {φ₁ φ₂ : FTy} (prec : Option ContractPrecision) (v : FVec Ideal S1024x256 φ₁)
    (w : FVec Ideal S256x256 φ₂) (r : Fin 1024) (e : Fin 256) :
    matmul dot_S1024x256_S256x256_S1024x256_1_0_0_1_n_n prec v w (constant (F := Ideal) S1024x256 .f32 0x00000000#32) (ix2 r e)
      = ∑ k : Fin 256, v (ix2 r k) * w (ix2 k e) := by
  refine (Ideal.matmul_constant_zero_apply dot_S1024x256_S256x256_S1024x256_1_0_0_1_n_n prec v w (ix2 r e)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r e)
      ((contrEquiv1 dot_S1024x256_S256x256_S1024x256_1_0_0_1_n_n 256 rfl rfl).symm k) = ix2 r k :=
    funext fun a => Fin.ext (by
      match a with
      | ⟨0, _⟩ => exact lhs256_row _ _
      | ⟨1, _⟩ => exact (dot_S1024x256_S256x256_S1024x256_1_0_0_1_n_n.lhsIdx_val_of_single rfl _ _).trans hk)
  have er : dot_S1024x256_S256x256_S1024x256_1_0_0_1_n_n.rhsIdx (ix2 r e)
      ((contrEquiv1 dot_S1024x256_S256x256_S1024x256_1_0_0_1_n_n 256 rfl rfl).symm k) = ix2 k e :=
    funext fun a => Fin.ext (by
      match a with
      | ⟨0, _⟩ => exact (dot_S1024x256_S256x256_S1024x256_1_0_0_1_n_n.rhsIdx_val_of_single rfl _ _).trans hk
      | ⟨1, _⟩ => exact rhs256_col _ _)
  rw [el, er]

/-! ## The logits of a tile, and the running maximum, denominator and numerator terms -/

theorem pay10_apply (x1 : Vec Ideal S512x256 .f32) (v12 : Vec Ideal S1024x256 .f32) (r : Fin 1024) (s : Fin 512) :
    k0_pay10 (F := Ideal) x1 v12 (ix2 r s) = ∑ k : Fin 256, v12 (ix2 r k) * x1 (ix2 s k) := by
  unfold k0_pay10
  refine (matmul512_apply _ v12 _ r s).trans ?_
  exact Finset.sum_congr rfl fun k _ => congrArg (v12 (ix2 r k) * ·) (transpose_swap_apply x1 _ k s)

theorem pay11_apply (x1 : Vec Ideal S512x256 .f32) (v12 : Vec Ideal S1024x256 .f32) (v17 : Vec Ideal S1024x1 .f32)
    (r : Fin 1024) (u : Fin 1) :
    k0_pay11 (F := Ideal) x1 v12 v17 (ix2 r u)
      = max (v17 (ix2 r u)) ((Finset.univ : Finset (Fin 512)).fold max ⊥ fun s => k0_pay10 (F := Ideal) x1 v12 (ix2 r s)) := by
  unfold k0_pay11
  refine (maximumf_apply _ _ _).trans ?_
  exact congrArg (max (v17 (ix2 r u))) (rowMax_apply (k0_pay10 (F := Ideal) x1 v12) _ _ _ _ r u)

theorem pay12_apply (x1 : Vec Ideal S512x256 .f32) (v12 : Vec Ideal S1024x256 .f32) (v17 v19 : Vec Ideal S1024x1 .f32)
    (r : Fin 1024) (u : Fin 1) :
    k0_pay12 (F := Ideal) x1 v12 v17 v19 (ix2 r u)
      = Ideal.exp (v19 (ix2 r u) - k0_pay11 (F := Ideal) x1 v12 v17 (ix2 r u)) := rfl

theorem pay13_apply (x1 : Vec Ideal S512x256 .f32) (v12 : Vec Ideal S1024x256 .f32) (v17 : Vec Ideal S1024x1 .f32)
    (r : Fin 1024) (s : Fin 512) :
    k0_pay13 (F := Ideal) x1 v12 v17 (ix2 r s)
      = Ideal.exp (k0_pay10 (F := Ideal) x1 v12 (ix2 r s) - k0_pay11 (F := Ideal) x1 v12 v17 (ix2 r (0 : Fin 1))) := by
  unfold k0_pay13
  refine (Cert.Lib.exp_apply _ _).trans (congrArg Ideal.exp ?_)
  refine (subf_apply _ _ _).trans ?_
  exact congrArg (k0_pay10 (F := Ideal) x1 v12 (ix2 r s) - ·)
    (Cert.Lib.broadcastTo_a1_ab_apply (k0_pay11 (F := Ideal) x1 v12 v17) _ r s)

theorem pay14_apply (x1 : Vec Ideal S512x256 .f32) (v12 : Vec Ideal S1024x256 .f32) (v17 v19 v25 : Vec Ideal S1024x1 .f32)
    (r : Fin 1024) (u : Fin 1) :
    k0_pay14 (F := Ideal) x1 v12 v17 v19 v25 (ix2 r u)
      = k0_pay12 (F := Ideal) x1 v12 v17 v19 (ix2 r u) * v25 (ix2 r u)
        + ∑ s : Fin 512, k0_pay13 (F := Ideal) x1 v12 v17 (ix2 r s) := by
  unfold k0_pay14
  refine (congrFun (shapeCast_self _ _) (ix2 r u)).trans ?_
  refine (addf_apply _ _ _).trans ?_
  refine congrArg₂ (· + ·) (mulf_apply (k0_pay12 (F := Ideal) x1 v12 v17 v19) v25 (ix2 r u)) ?_
  exact rowSum_apply (k0_pay13 (F := Ideal) x1 v12 v17) _ _ _ _ r u

/-! ## The first tile's preparation: the normalised query rows and their linear image -/

theorem pay5_apply (x0 : Vec Ideal S1024x256 .f32) (x2 : Vec Ideal S256x256 .f32) (r : Fin 1024) (e : Fin 256) :
    k0_pay5 (F := Ideal) x0 x2 (ix2 r e) = ∑ k : Fin 256, x0 (ix2 r k) * x2 (ix2 e k) := by
  unfold k0_pay5
  refine (congrFun (shapeCast_self _ _) (ix2 r e)).trans ?_
  refine (matmul256_apply _ x0 _ r e).trans ?_
  exact Finset.sum_congr rfl fun k _ => congrArg (x0 (ix2 r k) * ·) (transpose_swap_apply x2 _ k e)

theorem pay4_apply (x0 : Vec Ideal S1024x256 .f32) (r : Fin 1024) (k : Fin 256) :
    k0_pay4 (F := Ideal) x0 (ix2 r k)
      = x0 (ix2 r k) * Ideal.rsqrt (∑ k' : Fin 256, x0 (ix2 r k') * x0 (ix2 r k')) := by
  unfold k0_pay4
  refine (congrFun (shapeCast_self _ _) (ix2 r k)).trans ?_
  refine (truncf_apply (φ := .f32) (ψ := .bf16) _ bitsLt_bf16_f32 (ix2 r k)).trans ?_
  refine (mulf_apply (φ := .f32) x0 _ (ix2 r k)).trans (congrArg (x0 (ix2 r k) * ·) ?_)
  refine (Cert.Lib.broadcastTo_a1_ab_apply _ _ r k).trans ?_
  refine (rsqrt_apply _ _).trans (congrArg Ideal.rsqrt ?_)
  exact rowSum_apply (mulf x0 x0) _ _ _ _ r (0 : Fin 1)

/-! ## The cosine's numerator of a tile: the normalised query rows against the scaled context rows -/

theorem pay9_apply (x1 : Vec Ideal S512x256 .f32) (x3 : Vec Ideal S512x1 .f32) (v8 : Vec Ideal S1024x256 .bf16)
    (r : Fin 1024) (s : Fin 512) :
    k0_pay9 (F := Ideal) x1 x3 v8 (ix2 r s)
      = ∑ k : Fin 256, v8 (ix2 r k) * (x1 (ix2 s k) * x3 (ix2 s (0 : Fin 1))) := by
  unfold k0_pay9
  refine (matmul512_apply (φ₁ := .bf16) (φ₂ := .bf16) none v8 _ r s).trans ?_
  refine Finset.sum_congr rfl fun k _ => congrArg (v8 (ix2 r k) * ·) ?_
  refine (transpose_swap_apply _ _ k s).trans ?_
  refine (truncf_apply (φ := .f32) (ψ := .bf16) _ bitsLt_bf16_f32 (ix2 s k)).trans ?_
  refine (mulf_apply (φ := .f32) x1 _ (ix2 s k)).trans (congrArg (x1 (ix2 s k) * ·) ?_)
  refine (Cert.Lib.broadcastTo_a1_ab_apply _ _ s k).trans ?_
  exact congrFun (shapeCast_self x3 _) (ix2 s (0 : Fin 1))

end Cert.KernelIdeal.Pay

end
-- ==== Proof.TileStep.lean ====
/-
  One tile of the online softmax, row by row: from what the carried buffers hold at row `r` before a tile — the
  running maximum `mp`, the denominator `lp`, the numerator `np`, the normalised query row and its linear image —
  and the tile's context block and reciprocal norms, what the three accumulator payloads hold at row `r` after it.
-/
import proofs.«103096_j26096221291172_2_alg».proof.Proof.Payload
import proofs.«103096_j26096221291172_2_alg».proof.Proof.Spec

noncomputable section

namespace Cert.KernelIdeal.TileStep

open Idealize.ShloMosaic Idealize.ShloMosaic.ValueIdx Cert.KernelIdeal Cert.KernelIdeal.Gen Cert.Spec

/-- The tile's logits at row `r`: the linear query row against the tile's context rows. -/
theorem logits (x1 : Vec Ideal S512x256 .f32) (xs4 : Vec Ideal S1024x256 .f32)
    (Q C : Fin 8192 → Fin 256 → EReal) (W : Fin 256 → Fin 256 → EReal) (n : Fin 8192) (j : ℕ) (r : Fin 1024)
    (h1 : ∀ (s : Fin 512) (k : Fin 256), x1 (ix2 s k) = C (col j s) k)
    (hl : ∀ k : Fin 256, xs4 (ix2 r k) = ql Q W n k) (s : Fin 512) :
    k0_pay10 (F := Ideal) x1 xs4 (ix2 r s) = S Q C W n (col j s) := by
  rw [Pay.pay10_apply]
  unfold S
  exact Finset.sum_congr rfl fun k _ => by rw [hl k, h1 s k]

/-- The tile's cosines at row `r`. -/
theorem cosines (x1 : Vec Ideal S512x256 .f32) (x3 : Vec Ideal S512x1 .f32) (xs3 : Vec Ideal S1024x256 .bf16)
    (Q C : Fin 8192 → Fin 256 → EReal) (n : Fin 8192) (j : ℕ) (r : Fin 1024)
    (h1 : ∀ (s : Fin 512) (k : Fin 256), x1 (ix2 s k) = C (col j s) k)
    (h3 : ∀ s : Fin 512, x3 (ix2 s (0 : Fin 1)) = Ideal.rsqrt (0 + sq C (col j s)))
    (hq : ∀ k : Fin 256, xs3 (ix2 r k) = kqn Q n k) (s : Fin 512) :
    k0_pay9 (F := Ideal) x1 x3 xs3 (ix2 r s) = kcos Q C n (col j s) := by
  rw [Pay.pay9_apply]
  unfold kcos kcn
  exact Finset.sum_congr rfl fun k _ => by rw [hq k, h1 s k, h3 s]

/-- The three accumulators after the tile, at row `r`. -/
theorem step (x1 : Vec Ideal S512x256 .f32) (x3 : Vec Ideal S512x1 .f32)
    (xs0 xs1 xs2 : Vec Ideal S1024x1 .f32) (xs3 : Vec Ideal S1024x256 .bf16) (xs4 : Vec Ideal S1024x256 .f32)
    (Q C : Fin 8192 → Fin 256 → EReal) (W : Fin 256 → Fin 256 → EReal) (n : Fin 8192) (j : ℕ) (r : Fin 1024)
    (h1 : ∀ (s : Fin 512) (k : Fin 256), x1 (ix2 s k) = C (col j s) k)
    (h3 : ∀ s : Fin 512, x3 (ix2 s (0 : Fin 1)) = Ideal.rsqrt (0 + sq C (col j s)))
    (hq : ∀ k : Fin 256, xs3 (ix2 r k) = kqn Q n k)
    (hl : ∀ k : Fin 256, xs4 (ix2 r k) = ql Q W n k)
    (mp lp np : EReal) (hm : ∀ u : Fin 1, xs0 (ix2 r u) = mp) (hlp : ∀ u : Fin 1, xs1 (ix2 r u) = lp)
    (hnp : ∀ u : Fin 1, xs2 (ix2 r u) = np) (u : Fin 1) :
    k0_pay2 (F := Ideal) (k0_pay11 x1 xs4 xs0) (ix2 r u) = max mp (tmax Q C W n j)
    ∧ k0_pay14 (F := Ideal) x1 xs4 xs0 xs0 xs1 (ix2 r u)
        = Ideal.exp (mp - max mp (tmax Q C W n j)) * lp
          + ∑ s : Fin 512, Ideal.exp (S Q C W n (col j s) - max mp (tmax Q C W n j))
    ∧ k0_pay1 (F := Ideal) (k0_pay9 x1 x3 xs3) (k0_pay12 x1 xs4 xs0 xs0) (k0_pay13 x1 xs4 xs0) xs2 (ix2 r u)
        = Ideal.exp (mp - max mp (tmax Q C W n j)) * np
          + ∑ s : Fin 512, Ideal.exp (S Q C W n (col j s) - max mp (tmax Q C W n j)) * kcos Q C n (col j s) := by
  -- the tile's logits under the fold and the sums
  have hL : (fun s : Fin 512 => k0_pay10 (F := Ideal) x1 xs4 (ix2 r s)) = fun s => S Q C W n (col j s) :=
    funext fun s => logits x1 xs4 Q C W n j r h1 hl s
  -- the running maximum after the tile, at either spelling of the unit column
  have h11 : ∀ u' : Fin 1, k0_pay11 (F := Ideal) x1 xs4 xs0 (ix2 r u') = max mp (tmax Q C W n j) := fun u' => by
    rw [Pay.pay11_apply, hm u', hL]
    rfl
  -- the rescaling coefficient and the tile's exponentials
  have h12 : ∀ u' : Fin 1, k0_pay12 (F := Ideal) x1 xs4 xs0 xs0 (ix2 r u') = Ideal.exp (mp - max mp (tmax Q C W n j)) :=
    fun u' => by rw [Pay.pay12_apply, hm u', h11 u']
  have h13 : ∀ s : Fin 512, k0_pay13 (F := Ideal) x1 xs4 xs0 (ix2 r s)
      = Ideal.exp (S Q C W n (col j s) - max mp (tmax Q C W n j)) :=
    fun s => by rw [Pay.pay13_apply, logits x1 xs4 Q C W n j r h1 hl s, h11 (0 : Fin 1)]
  refine ⟨?_, ?_, ?_⟩
  · rw [Pay.pay2_apply, h11 u]
  · rw [Pay.pay14_apply, h12 u, hlp u]
    exact congrArg (_ + ·) (Finset.sum_congr rfl fun s _ => h13 s)
  · rw [Pay.pay1_apply, h12 u, hnp u]
    exact congrArg (_ + ·) (Finset.sum_congr rfl fun s _ => by rw [h13 s, cosines x1 x3 xs3 Q C n j r h1 h3 hq s])

end Cert.KernelIdeal.TileStep

end
-- ==== Proof.RowInit.lean ====
/-
  The first point of a row of tiles, row by row: the normalised query row and its linear image, as the kernel
  stores them, are the specification's.
-/
import proofs.«103096_j26096221291172_2_alg».proof.Proof.Payload
import proofs.«103096_j26096221291172_2_alg».proof.Proof.Spec

noncomputable section

namespace Cert.KernelIdeal.RowInit

open Idealize.ShloMosaic Idealize.ShloMosaic.ValueIdx Cert.KernelIdeal Cert.KernelIdeal.Gen Cert.Spec

/-- The normalised query row. -/
theorem qnorm (x0 : Vec Ideal S1024x256 .f32) (Q : Fin 8192 → Fin 256 → EReal) (n : Fin 8192) (r : Fin 1024)
    (h0 : ∀ k : Fin 256, x0 (ix2 r k) = Q n k) (k : Fin 256) :
    k0_pay4 (F := Ideal) x0 (ix2 r k) = kqn Q n k := by
  have hsum : (∑ k' : Fin 256, x0 (ix2 r k') * x0 (ix2 r k')) = Cert.Spec.sq Q n := by
    unfold Cert.Spec.sq
    exact Finset.sum_congr rfl fun k' _ => by rw [h0 k']
  rw [Pay.pay4_apply, hsum, h0 k]
  rfl

/-- The linear image of the query row. -/
theorem qlin (x0 : Vec Ideal S1024x256 .f32) (x2 : Vec Ideal S256x256 .f32) (Q : Fin 8192 → Fin 256 → EReal)
    (W : Fin 256 → Fin 256 → EReal) (n : Fin 8192) (r : Fin 1024)
    (h0 : ∀ k : Fin 256, x0 (ix2 r k) = Q n k) (h2 : ∀ e k : Fin 256, x2 (ix2 e k) = W e k) (e : Fin 256) :
    k0_pay5 (F := Ideal) x0 x2 (ix2 r e) = ql Q W n e := by
  rw [Pay.pay5_apply]
  unfold ql
  exact Finset.sum_congr rfl fun k _ => by rw [h0 k, h2 e k]

end Cert.KernelIdeal.RowInit

end
-- ==== Proof.InvNorm.lean ====
/-
  The fourth window's array, computed before the region: at row `n` the reciprocal square root of zero plus the sum
  of the squares of context row `n`.
-/
import proofs.«103096_j26096221291172_2_alg».proof.Proof.Gen.KernelIdeal.Frame
import proofs.«103096_j26096221291172_2_alg».proof.Proof.LibColumn
import proofs.«103096_j26096221291172_2_alg».proof.Proof.Spec
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.PureOps.Ideal.Laws

noncomputable section

namespace Cert.KernelIdeal.InvNorm

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The sums, from zero, of the squares of the rows of `A`. -/
def rowSq (A : FVec Ideal S8192x256 .f32) : FVec Ideal S8192 .f32 :=
  Host.reduceAdd (mulf A A) (constant (F := Ideal) S_ .f32 0x00000000#32) Facts₀.reducesTo_S8192x256_S8192_d1 Facts₀.h_S_

/-- The five operations before the region as one function of the context array `A`: the row sums of squares, broadcast
    to a column, then the reciprocal square root entrywise. -/
def invNorm (A : FVec Ideal S8192x256 .f32) : FVec Ideal S8192x1 .f32 :=
  Host.rsqrt (broadcastInDim S8192x1 ![0] Facts₀.bcast_S8192_S8192x1_0 (rowSq A))

/-- The sum at row `n`: zero plus the sum of the squares of row `n`. -/
theorem rowSq_apply (A : FVec Ideal S8192x256 .f32) (n : Fin 8192) :
    rowSq A (ix1 n) = 0 + ∑ k : Fin 256, A (ix2 n k) * A (ix2 n k) := by
  unfold rowSq
  -- the sum over axis 1 at n: the initial value plus the sum over the row
  rw [hostReduceAdd_apply, Ideal.hostReduceAdd_single Facts₀.reducesTo_S8192x256_S8192_d1 (by decide)]
  show Ideal.ofBits .f32 0x00000000#32 + _ = _
  rw [Ideal.ofBits_zero_f32]
  refine congrArg (0 + ·) (Finset.sum_congr rfl fun k _ => ?_)
  exact congrArg (fun i => A i * A i) (funext fun a => Fin.ext (by match a with | ⟨0, _⟩ => rfl | ⟨1, _⟩ => rfl))

/-- The column at `(n, 0)`: the reciprocal square root of zero plus the sum of the squares of row `n`. -/
theorem invNorm_apply (A : FVec Ideal S8192x256 .f32) (n : Fin 8192) :
    invNorm A (ix2 n (0 : Fin 1)) = Ideal.rsqrt (0 + ∑ k : Fin 256, A (ix2 n k) * A (ix2 n k)) := by
  -- the reciprocal square root acts entrywise
  show Ideal.rsqrt (broadcastInDim S8192x1 ![0] Facts₀.bcast_S8192_S8192x1_0 (rowSq A) (ix2 n (0 : Fin 1))) = _
  refine congrArg Ideal.rsqrt ?_
  -- the column's entry at (n, 0) is the vector's entry at n
  rw [broadcastInDim_apply _ Facts₀.bcast_S8192_S8192x1_0 (rowSq A) (ix2 n (0 : Fin 1)) (ix1 n) (fun a => match a with
    | ⟨0, _⟩ => by show n.val = if (8192 : Nat) = 1 then 0 else n.val; rw [if_neg (by decide)])]
  exact rowSq_apply A n

/-- The reciprocal-norm column as the region finds it, at row `n`. -/
theorem V_main_v3_apply (c : Dev nD) (n : Fin 8192) :
    V m c main_v3 (ix2 n (0 : Fin 1))
      = Ideal.rsqrt (0 + Cert.Spec.sq (fun n k => V m c main_arg1 (ix2 n k)) n) := by
  -- the five operations before the region, composed
  have e : V m c main_v3 = invNorm (m ((c : Thread nD τ).loc main_arg1)) := by
    show StableHlo.after hostOps0 (fun b => m (c, b)) (Proc.devRef .tc main_v3) = _
    after_results
    rfl
  -- none of them writes the context array
  rw [V_main_arg1 m c]
  exact (congrFun e _).trans (invNorm_apply _ n)

end Cert.KernelIdeal.InvNorm

end
-- ==== Proof.Invariant.lean ====
/-
  What the kernel's carried buffers hold after each grid point. Point `t` is tile `t % 16` of the row of tiles
  `t / 16`; after it, at row `r` of the block, the three accumulators hold the specification's running maximum,
  denominator and numerator of global row `1024 (t / 16) + r` after tile `t % 16`, and the two query buffers hold that
  row normalised and its linear image. By induction on the point: a first tile starts from `-∞`, `0`, `0`; a later
  tile continues from what the point before left, which belongs to the same rows.
-/
import proofs.«103096_j26096221291172_2_alg».proof.Proof.Blocks
import proofs.«103096_j26096221291172_2_alg».proof.Proof.Spec
import proofs.«103096_j26096221291172_2_alg».proof.Proof.Pieces
import proofs.«103096_j26096221291172_2_alg».proof.Proof.Payload
import proofs.«103096_j26096221291172_2_alg».proof.Proof.TileStep
import proofs.«103096_j26096221291172_2_alg».proof.Proof.RowInit
import proofs.«103096_j26096221291172_2_alg».proof.Proof.InvNorm

set_option maxRecDepth 16384

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- The query, context and weight arrays as the region finds them, curried. -/
def Qf (c : Dev nD) : Fin 8192 → Fin 256 → EReal := fun n k => V m c main_arg0 (ix2 n k)
def Cf (c : Dev nD) : Fin 8192 → Fin 256 → EReal := fun n k => V m c main_arg1 (ix2 n k)
def Wf (c : Dev nD) : Fin 256 → Fin 256 → EReal := fun e k => V m c main_arg2 (ix2 e k)

/-! ## The blocks at a point, in the specification's words -/

theorem crow_eq_col (t : Fin cfg0.N) (s : Fin 512) : crow t s = Cert.Spec.col (t.val % 16) s := by
  apply Fin.ext
  show 512 * (t.val % 16) + s.val = (512 * (t.val % 16) + s.val) % 8192
  have := s.isLt
  exact (Nat.mod_eq_of_lt (by omega)).symm

theorem blk0 (c : Dev nD) (t : Fin cfg0.N) (r : Fin 1024) (k : Fin 256) :
    (iblk m c 0 t : Vec Ideal S1024x256 .f32) (ix2 r k) = Qf m c (qrow t r) k := iblk0_apply m c t r k

theorem blk1 (c : Dev nD) (t : Fin cfg0.N) (s : Fin 512) (k : Fin 256) :
    (iblk m c 1 t : Vec Ideal S512x256 .f32) (ix2 s k) = Cf m c (Cert.Spec.col (t.val % 16) s) k := by
  rw [iblk1_apply, crow_eq_col]; rfl

theorem blk2 (c : Dev nD) (t : Fin cfg0.N) (e k : Fin 256) :
    (iblk m c 2 t : Vec Ideal S256x256 .f32) (ix2 e k) = Wf m c e k := iblk2_apply m c t e k

theorem blk3 (c : Dev nD) (t : Fin cfg0.N) (s : Fin 512) :
    (iblk m c 3 t : Vec Ideal S512x1 .f32) (ix2 s (0 : Fin 1))
      = Ideal.rsqrt (0 + Cert.Spec.sq (Cf m c) (Cert.Spec.col (t.val % 16) s)) := by
  rw [iblk3_apply, crow_eq_col, InvNorm.V_main_v3_apply]; rfl

/-! ## The cases' contents as payloads -/

set_option maxHeartbeats 4000000 in
theorem compsA (c : Dev nD) (t : Fin cfg0.N) (h0 : t.val % 16 = 0) (h1 : ¬t.val % 16 = 15) :
    (outsAt0 m c t.val t.isLt).2.1 = k0_pay2 (k0_pay11 (iblk m c 1 t) (k0_pay5 (iblk m c 0 t) (iblk m c 2 t)) (k0_pay6 (F := Ideal)))
    ∧ (outsAt0 m c t.val t.isLt).2.2.1 = k0_pay14 (iblk m c 1 t) (k0_pay5 (iblk m c 0 t) (iblk m c 2 t)) (k0_pay6 (F := Ideal)) (k0_pay6 (F := Ideal)) (k0_pay7 (F := Ideal))
    ∧ (outsAt0 m c t.val t.isLt).2.2.2.1 = k0_pay1 (k0_pay9 (iblk m c 1 t) (iblk m c 3 t) (k0_pay4 (iblk m c 0 t))) (k0_pay12 (iblk m c 1 t) (k0_pay5 (iblk m c 0 t) (iblk m c 2 t)) (k0_pay6 (F := Ideal)) (k0_pay6 (F := Ideal))) (k0_pay13 (iblk m c 1 t) (k0_pay5 (iblk m c 0 t) (iblk m c 2 t)) (k0_pay6 (F := Ideal))) (k0_pay8 (F := Ideal))
    ∧ (outsAt0 m c t.val t.isLt).2.2.2.2.1 = k0_pay4 (iblk m c 0 t)
    ∧ (outsAt0 m c t.val t.isLt).2.2.2.2.2 = k0_pay5 (iblk m c 0 t) (iblk m c 2 t) := by
  rw [outsAt0_A m c t h0 h1]
  exact ⟨Pieces.sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t),
    Pieces.sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t),
    Pieces.sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t),
    Pieces.sout0_A_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t),
    Pieces.sout0_A_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)⟩

set_option maxHeartbeats 1000000 in
theorem compsB (c : Dev nD) (t : Fin cfg0.N) (h0 : ¬t.val % 16 = 0) (h1 : ¬t.val % 16 = 15) :
    (outsAt0 m c t.val t.isLt).2.1 = k0_pay2 (k0_pay11 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1)
    ∧ (outsAt0 m c t.val t.isLt).2.2.1 = k0_pay14 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1 = k0_pay1 (k0_pay9 (iblk m c 1 t) (iblk m c 3 t) (outsAt0 m c (t.val - 1) (Nat.lt_of_le_of_lt (Nat.sub_le _ _) t.isLt)).2.2.2.2.1) (k0_pay12 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1) (k0_pay13 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1) (outsAt0 m c (t.val - 1) (Nat.lt_of_le_of_lt (Nat.sub_le _ _) t.isLt)).2.2.2.1
    ∧ (outsAt0 m c t.val t.isLt).2.2.2.2.1 = (outsAt0 m c (t.val - 1) (Nat.lt_of_le_of_lt (Nat.sub_le _ _) t.isLt)).2.2.2.2.1
    ∧ (outsAt0 m c t.val t.isLt).2.2.2.2.2 = (outsAt0 m c (t.val - 1) (Nat.lt_of_le_of_lt (Nat.sub_le _ _) t.isLt)).2.2.2.2.2 := by
  rw [outsAt0_B m c t h0 h1]
  exact ⟨Pieces.sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    Pieces.sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    Pieces.sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    rfl, rfl⟩

set_option maxHeartbeats 1000000 in
theorem compsC (c : Dev nD) (t : Fin cfg0.N) (h0 : ¬t.val % 16 = 0) (h1 : t.val % 16 = 15) :
    (outsAt0 m c t.val t.isLt).2.1 = k0_pay2 (k0_pay11 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1)
    ∧ (outsAt0 m c t.val t.isLt).2.2.1 = k0_pay14 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2.1 = k0_pay1 (k0_pay9 (iblk m c 1 t) (iblk m c 3 t) (outsAt0 m c (t.val - 1) (Nat.lt_of_le_of_lt (Nat.sub_le _ _) t.isLt)).2.2.2.2.1) (k0_pay12 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1) (k0_pay13 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1) (outsAt0 m c (t.val - 1) (Nat.lt_of_le_of_lt (Nat.sub_le _ _) t.isLt)).2.2.2.1
    ∧ (outsAt0 m c t.val t.isLt).2.2.2.2.1 = (outsAt0 m c (t.val - 1) (Nat.lt_of_le_of_lt (Nat.sub_le _ _) t.isLt)).2.2.2.2.1
    ∧ (outsAt0 m c t.val t.isLt).2.2.2.2.2 = (outsAt0 m c (t.val - 1) (Nat.lt_of_le_of_lt (Nat.sub_le _ _) t.isLt)).2.2.2.2.2
    ∧ (outsAt0 m c t.val t.isLt).1 = k0_pay3 (k0_pay1 (k0_pay9 (iblk m c 1 t) (iblk m c 3 t) (outsAt0 m c (t.val - 1) (Nat.lt_of_le_of_lt (Nat.sub_le _ _) t.isLt)).2.2.2.2.1) (k0_pay12 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1) (k0_pay13 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1) (outsAt0 m c (t.val - 1) (Nat.lt_of_le_of_lt (Nat.sub_le _ _) t.isLt)).2.2.2.1) (k0_pay14 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) := by
  rw [outsAt0_C m c t h0 h1]
  exact ⟨Pieces.sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    Pieces.sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    Pieces.sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    rfl, rfl,
    Pieces.out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-! ## The induction over the grid points -/

/-- What holds after point `n`, row by row. -/
def Good (c : Dev nD) (n : ℕ) (h : n < cfg0.N) : Prop :=
  ∀ r : Fin 1024,
    (∀ u : Fin 1, (outsAt0 m c n h).2.1 (ix2 r u) = Cert.Spec.mrun (Qf m c) (Cf m c) (Wf m c) (qrow ⟨n, h⟩ r) (n % 16))
    ∧ (∀ u : Fin 1, (outsAt0 m c n h).2.2.1 (ix2 r u) = Cert.Spec.lrun (Qf m c) (Cf m c) (Wf m c) (qrow ⟨n, h⟩ r) (n % 16))
    ∧ (∀ u : Fin 1, (outsAt0 m c n h).2.2.2.1 (ix2 r u) = Cert.Spec.nrun (Qf m c) (Cf m c) (Wf m c) (qrow ⟨n, h⟩ r) (n % 16))
    ∧ (∀ k : Fin 256, (outsAt0 m c n h).2.2.2.2.1 (ix2 r k) = Cert.Spec.kqn (Qf m c) (qrow ⟨n, h⟩ r) k)
    ∧ (∀ e : Fin 256, (outsAt0 m c n h).2.2.2.2.2 (ix2 r e) = Cert.Spec.ql (Qf m c) (Wf m c) (qrow ⟨n, h⟩ r) e)

/-- A first tile: the accumulators start from `-∞`, `0`, `0`, the query buffers are filled. -/
theorem good_first (c : Dev nD) (t : Fin cfg0.N) (h0 : t.val % 16 = 0) : Good m c t.val t.isLt := by
  have h1 : ¬t.val % 16 = 15 := by omega
  obtain ⟨e0, e1, e2, e3, e4⟩ := compsA m c t h0 h1
  intro r
  have hq : ∀ k : Fin 256, k0_pay4 (F := Ideal) (iblk m c 0 t) (ix2 r k) = Cert.Spec.kqn (Qf m c) (qrow t r) k :=
    fun k => RowInit.qnorm (iblk m c 0 t) (Qf m c) (qrow t r) r (fun k => blk0 m c t r k) k
  have hl : ∀ e : Fin 256, k0_pay5 (F := Ideal) (iblk m c 0 t) (iblk m c 2 t) (ix2 r e)
      = Cert.Spec.ql (Qf m c) (Wf m c) (qrow t r) e :=
    fun e => RowInit.qlin (iblk m c 0 t) (iblk m c 2 t) (Qf m c) (Wf m c) (qrow t r) r (fun k => blk0 m c t r k)
      (fun e k => blk2 m c t e k) e
  have hs := fun u : Fin 1 => TileStep.step (iblk m c 1 t) (iblk m c 3 t) (k0_pay6 (F := Ideal)) (k0_pay7 (F := Ideal))
      (k0_pay8 (F := Ideal)) (k0_pay4 (F := Ideal) (iblk m c 0 t)) (k0_pay5 (F := Ideal) (iblk m c 0 t) (iblk m c 2 t))
      (Qf m c) (Cf m c) (Wf m c) (qrow t r) (t.val % 16) r (fun s k => blk1 m c t s k) (fun s => blk3 m c t s) hq hl
      ⊥ 0 0 (fun u => Pay.pay6_apply _) (fun u => Pay.pay7_apply _) (fun u => Pay.pay8_apply _) u
  refine ⟨fun u => ?_, fun u => ?_, fun u => ?_, fun k => ?_, fun e => ?_⟩
  · rw [e0]; refine ((hs u).1).trans ?_; rw [h0]; rfl
  · rw [e1]; refine ((hs u).2.1).trans ?_; rw [h0]; rfl
  · rw [e2]; refine ((hs u).2.2).trans ?_; rw [h0]; rfl
  · rw [e3]; exact hq k
  · rw [e4]; exact hl e

/-- A later tile: the accumulators continue from what the point before left, which belongs to the same rows. -/
theorem good_next (c : Dev nD) (t : Fin cfg0.N) (h0 : ¬t.val % 16 = 0)
    (hp : Good m c (t.val - 1) (Nat.lt_of_le_of_lt (Nat.sub_le _ _) t.isLt))
    (e0 : (outsAt0 m c t.val t.isLt).2.1 = k0_pay2 (k0_pay11 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1))
    (e1 : (outsAt0 m c t.val t.isLt).2.2.1 = k0_pay14 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1)
    (e2 : (outsAt0 m c t.val t.isLt).2.2.2.1 = k0_pay1 (k0_pay9 (iblk m c 1 t) (iblk m c 3 t) (outsAt0 m c (t.val - 1) (Nat.lt_of_le_of_lt (Nat.sub_le _ _) t.isLt)).2.2.2.2.1) (k0_pay12 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1 (outsAt0 m c (t.val - 1) (Nat.lt_of_le_of_lt (Nat.sub_le _ _) t.isLt)).2.1) (k0_pay13 (iblk m c 1 t) (outsAt0 m c (t.val - 1) (Nat.lt_of_le_of_lt (Nat.sub_le _ _) t.isLt)).2.2.2.2.2 (outsAt0 m c (t.val - 1) (Nat.lt_of_le_of_lt (Nat.sub_le _ _) t.isLt)).2.1) (outsAt0 m c (t.val - 1) (Nat.lt_of_le_of_lt (Nat.sub_le _ _) t.isLt)).2.2.2.1)
    (e3 : (outsAt0 m c t.val t.isLt).2.2.2.2.1 = (outsAt0 m c (t.val - 1) (Nat.lt_of_le_of_lt (Nat.sub_le _ _) t.isLt)).2.2.2.2.1)
    (e4 : (outsAt0 m c t.val t.isLt).2.2.2.2.2 = (outsAt0 m c (t.val - 1) (Nat.lt_of_le_of_lt (Nat.sub_le _ _) t.isLt)).2.2.2.2.2) : Good m c t.val t.isLt := by
  intro r
  obtain ⟨p0, p1, p2, p3, p4⟩ := hp r
  have hrow : qrow ⟨t.val - 1, Nat.lt_of_le_of_lt (Nat.sub_le _ _) t.isLt⟩ r = qrow t r := by
    apply Fin.ext
    show 1024 * ((t.val - 1) / 16) + r.val = 1024 * (t.val / 16) + r.val
    omega
  obtain ⟨j, hj1, hj⟩ : ∃ j, (t.val - 1) % 16 = j ∧ t.val % 16 = j + 1 := ⟨(t.val - 1) % 16, rfl, by omega⟩
  rw [hrow, hj1] at p0 p1 p2
  rw [hrow] at p3 p4
  have hs := fun u : Fin 1 => TileStep.step (iblk m c 1 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
      (Qf m c) (Cf m c) (Wf m c) (qrow t r) (t.val % 16) r (fun s k => blk1 m c t s k) (fun s => blk3 m c t s) p3 p4
      _ _ _ p0 p1 p2 u
  refine ⟨fun u => ?_, fun u => ?_, fun u => ?_, fun k => ?_, fun e => ?_⟩
  · rw [e0]; refine ((hs u).1).trans ?_; rw [hj]; rfl
  · rw [e1]; refine ((hs u).2.1).trans ?_; rw [hj]; rfl
  · rw [e2]; refine ((hs u).2.2).trans ?_; rw [hj]; rfl
  · rw [e3]; exact p3 k
  · rw [e4]; exact p4 e

/-- After every point the carried buffers hold the specification's state. -/
theorem good (c : Dev nD) : ∀ (n : ℕ) (h : n < cfg0.N), Good m c n h := by
  intro n
  induction n using Nat.strong_induction_on with
  | _ n IH =>
    intro h
    by_cases h0 : n % 16 = 0
    · exact good_first m c ⟨n, h⟩ h0
    · have hp := IH (n - 1) (by omega) (Nat.lt_of_le_of_lt (Nat.sub_le _ _) h)
      by_cases h1 : n % 16 = 15
      · obtain ⟨e0, e1, e2, e3, e4, _⟩ := compsC m c ⟨n, h⟩ h0 h1
        exact good_next m c ⟨n, h⟩ h0 hp e0 e1 e2 e3 e4
      · obtain ⟨e0, e1, e2, e3, e4⟩ := compsB m c ⟨n, h⟩ h0 h1
        exact good_next m c ⟨n, h⟩ h0 hp e0 e1 e2 e3 e4

/-- At a point that closes a row of tiles the output buffer holds the rows' values. -/
theorem out_last (c : Dev nD) (t : Fin cfg0.N) (h15 : t.val % 16 = 15) (r : Fin 1024) (u : Fin 1) :
    (outsAt0 m c t.val t.isLt).1 (ix2 r u) = Cert.Spec.krow (Qf m c) (Cf m c) (Wf m c) (qrow t r) := by
  have h0 : ¬t.val % 16 = 0 := by omega
  obtain ⟨e0, e1, e2, e3, e4, e5⟩ := compsC m c t h0 h15
  obtain ⟨-, g1, g2, -, -⟩ := good m c t.val t.isLt r
  rw [e5, Pay.pay3_apply, ← e2, ← e1, g1 u, g2 u, h15]
  rfl

end Cert.KernelIdeal.Inv

end
-- ==== Proof.KernelValue.lean ====
/-
  The idealized kernel's result: the region leaves row `n` of its output column at the row value `krow n`, and the
  operations after the region sum the column, divide by 8192.0 and take the maximum with zero.
-/
import proofs.«103096_j26096221291172_2_alg».proof.Proof.Invariant
import Idealize.ShloMosaic.Lib.ReduceAll

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Inv

variable (m : (ℓ : Loc nD τ sig) → Buf (Elt Ideal) ℓ) (ρ : Dev nD → PrngReg)

/-- The output column after the region: row `n` holds `krow n`. -/
def col (c : Dev nD) : S8192x1.Idx → EReal :=
  fun i => Cert.Spec.krow (Qf m c) (Cf m c) (Wf m c) ⟨(i 0).val, idx2_lt0 i⟩

/-- What a point closing a row of tiles writes back is its block of the column. -/
theorem flushed_eq (c : Dev nD) (t : Fin cfg0.N) (hf : (cfg0.win 4).flush t = true) :
    (dats m 0 c).flushed 4 t = ((cfg0.win 4).blk t).view.read (Elt Ideal) (col m c) := by
  have h15 : t.val % 16 = 15 := (flush0_4 t).mp hf
  have hi := idx4 t
  show (cfg0.win 4).cut (grid0.coords t) ((dats m 0 c).after 4 t) = _
  rw [after0_4]
  funext y
  obtain ⟨r, u, rfl⟩ : ∃ (r : Fin 1024) (u : Fin 1), y = ix2 r u := ⟨y 0, y 1, eq_ix2 y⟩
  show (outsAt0 m c t.val t.isLt).1 (ix2 r u) = col m c (((cfg0.win 4).blk t).view.emb (ix2 r u))
  rw [out_last m c t h15 r u]
  unfold col
  congr 1
  apply Fin.ext
  show 1024 * (t.val / 16) + r.val = win0_4.index t 0 * 1024 + 1 * r.val
  rw [hi.1]; omega

/-- The blocks written back cover the column: row `n` is in the block of the point closing tile row `n / 1024`. -/
theorem cover (c : Dev nD) (i : S8192x1.Idx) :
    ∃ t : Fin cfg0.N, (cfg0.win 4).flush t = true ∧ i ∈ ((cfg0.win 4).blk t).view.set := by
  have hN : cfg0.N = 128 := N_0
  have h0 : (i 0 : Nat) < 8192 := (i 0).isLt
  have h1 : (i 1 : Nat) < 1 := (i 1).isLt
  let t : Fin cfg0.N := ⟨16 * ((i 0).val / 1024) + 15, by omega⟩
  have ht : t.val = 16 * ((i 0).val / 1024) + 15 := rfl
  have hi := idx4 t
  refine ⟨t, (flush0_4 t).mpr (by rw [ht]; omega), ?_⟩
  show i ∈ ((View.whole main_v4).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + 1024
    rw [hi.1, ht]; omega
  | ⟨1, _⟩ =>
    show win0_4.index t 1 * 1 ≤ (i 1 : Nat) ∧ (i 1 : Nat) < win0_4.index t 1 * 1 + 1
    rw [hi.2]; omega

/-- The output column after the last point. -/
theorem final (c : Dev nD) : (dats m 0 c).arrAt 4 cfg0.N = col m c :=
  (dats m 0 c).arrAt_eq_of_cover 4 (col m c) (flushed_eq m c) (cover c)

/-- After the operations that follow the region the result buffer holds the specification's `kresult`. -/
theorem tail_eq (c : Dev nD) :
    Pipeline.afterTail₀ cfgs (dats m) 0 (V0 m) [hostOps1, hostOps1_1] c main_v7
      = fun _ => Cert.Spec.kresult (Qf m c) (Cf m c) (Wf m c) := by
  unfold Pipeline.afterTail₀
  simp only [hostOps1, hostOps1_1, List.flatten_cons, List.flatten_nil, List.append_nil, List.cons_append, List.nil_append]
  after_results
  have hcol : Pipeline.withArrays (cfgs 0).spec c (V0 m c) (fun w => (dats m 0 c).arrAt w (cfgs 0).N) (Proc.tc.devRef main_v4) = col m c :=
    (Pipeline.withArrays_arr spec0 launch0.win.arr_inj c _ _ 4).trans (final m c)
  rw [hcol]
  show (maximumf (Host.divf (Host.reduceAdd (F := Ideal) (col m c) (constant S_ .f32 0x00000000#32) reducesTo_S8192x1_S_d0_1 h_S_)
      (constant S_ .f32 0x46000000#32)) (constant S_ .f32 0x00000000#32) : S_.Idx → EReal) = _
  funext j
  simp only [maximumf_apply, Host.divf, Host.reduceAdd, Ideal.hostReduceAdd_def, Ideal.hostDivf_def, constant_apply]
  rw [Ideal.hostReduceAdd_total reducesTo_S8192x1_S_d0_1 (fun b => b.elim0)]
  have hs : ∑ i : S8192x1.Idx, col m c i = ∑ n : Fin 8192, Cert.Spec.krow (Qf m c) (Cf m c) (Wf m c) n := by
    rw [sum_idx2]
    refine Finset.sum_congr rfl fun a _ => ?_
    rw [Fin.sum_univ_one]
    rfl
  rw [hs]
  unfold Cert.Spec.kresult Cert.Spec.tail
  rw [Ideal.ofBits_zero_f32]

/-- The idealized kernel's run, read: the result at the specification's `kresult`, the arguments unchanged. -/
theorem run : θ_run defs (onTc (τ := τ) (main (F := Ideal))) ⟨m, fun _ => 0, ρ⟩ (fun r => ∀ c : Dev nD,
      r.2.mem ((c : Thread nD τ).loc main_v7) = (fun _ => Cert.Spec.kresult (Qf m c) (Cf m c) (Wf m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v7 (Pipeline.mem_restRefs_of main_v7 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.lean ====
/-
  The claim. The kernel as printed, the kernel read on the extended reals and the reference read on the extended reals each
  run to the end and leave their three argument arrays unchanged; the kernel read on the extended reals is the printed
  kernel's own text, no operation rewritten; and from memories that satisfy the precondition and agree on the arguments
  the last two end with the same scalar.

  The precondition says that every entry of the three arrays is a real number and that every row of the query array and of
  the context array has a positive sum of squares. On such arrays the two results are one extended real:

  * the reference divides a row by the square root of its sum of squares, the kernel multiplies it by the reciprocal square
    root; at a positive sum of squares the two are equal, so the two cosines are equal;
  * the reference takes the softmax of a whole row of 8192 logits relative to the row maximum and sums softmax · cosine over
    the row; the kernel walks the row in sixteen tiles of 512 columns, keeping a running maximum, a denominator and a
    numerator, each rescaled by the exponential of (old maximum - new maximum) when a tile is entered, and divides the
    numerator by the denominator after the last tile. Moving the reference point of a sum of exponentials multiplies every
    term by one common factor, so after the last tile the two accumulators are the sums over the whole row relative to the
    last running maximum, and their ratio is the softmax-weighted sum of the cosines whatever point the softmax is taken
    relative to;
  * both end alike: zero plus the sum over the rows, divided by 8192, then the maximum with zero.
-/
import proofs.«103096_j26096221291172_2_alg».proof.Defs
import proofs.«103096_j26096221291172_2_alg».proof.Proof.Gen.Kernel
import proofs.«103096_j26096221291172_2_alg».proof.Proof.Gen.Kernel.Skeleton
import proofs.«103096_j26096221291172_2_alg».proof.Proof.Gen.Kernel.Launch
import proofs.«103096_j26096221291172_2_alg».proof.Proof.Gen.Kernel.Points
import proofs.«103096_j26096221291172_2_alg».proof.Proof.Gen.Kernel.Frame
import proofs.«103096_j26096221291172_2_alg».proof.Proof.Gen.KernelIdeal
import proofs.«103096_j26096221291172_2_alg».proof.Proof.Gen.KernelIdeal.Skeleton
import proofs.«103096_j26096221291172_2_alg».proof.Proof.Gen.KernelIdeal.Launch
import proofs.«103096_j26096221291172_2_alg».proof.Proof.Gen.KernelIdeal.Points
import proofs.«103096_j26096221291172_2_alg».proof.Proof.Gen.KernelIdeal.Frame
import proofs.«103096_j26096221291172_2_alg».proof.Proof.Gen.ReferenceIdeal
import proofs.«103096_j26096221291172_2_alg».proof.Proof.Gen.Pre_finite_inputs
import proofs.«103096_j26096221291172_2_alg».proof.Proof.Gen.ReferenceIdeal.Run
import proofs.«103096_j26096221291172_2_alg».proof.Proof.Gen.ReferenceIdeal.Read
import proofs.«103096_j26096221291172_2_alg».proof.Proof.RefRead
import proofs.«103096_j26096221291172_2_alg».proof.Proof.PreFacts
import proofs.«103096_j26096221291172_2_alg».proof.Proof.Math
import proofs.«103096_j26096221291172_2_alg».proof.Proof.Invariant
import proofs.«103096_j26096221291172_2_alg».proof.Proof.KernelValue
import Idealize.ShloMosaic.Adequacy
import Idealize.ShloMosaic.Init

noncomputable section

namespace Cert.Proof.Claims

open Idealize.ShloMosaic Idealize.ShloMosaic.TcCoe Idealize.SL.Sem Idealize.ShloMosaic.ValueIdx
open Cert.KernelIdeal.Inv (Qf Cf Wf)

theorem frame_p : Cert.frame_Kernel := fun m ρ _ => Cert.Kernel.Gen.frame m ρ

theorem frame_pi : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The query array as the kernel's region finds it is the launch contents, curried. -/
theorem Qf_eq (m : (ℓ : Loc Cert.KernelIdeal.nD Cert.KernelIdeal.τ Cert.KernelIdeal.sig) → Buf (Elt Ideal) ℓ)
    (c : Dev Cert.KernelIdeal.nD) :
    Qf m c = fun n k => m ((c.tc : Thread Cert.KernelIdeal.nD Cert.KernelIdeal.τ).loc Cert.KernelIdeal.main_arg0) (ix2 n k) := by
  unfold Cert.KernelIdeal.Inv.Qf
  rw [Cert.KernelIdeal.Gen.V_main_arg0]

/-- The context array, likewise. -/
theorem Cf_eq (m : (ℓ : Loc Cert.KernelIdeal.nD Cert.KernelIdeal.τ Cert.KernelIdeal.sig) → Buf (Elt Ideal) ℓ)
    (c : Dev Cert.KernelIdeal.nD) :
    Cf m c = fun n k => m ((c.tc : Thread Cert.KernelIdeal.nD Cert.KernelIdeal.τ).loc Cert.KernelIdeal.main_arg1) (ix2 n k) := by
  unfold Cert.KernelIdeal.Inv.Cf
  rw [Cert.KernelIdeal.Gen.V_main_arg1]

/-- The linear layer, likewise. -/
theorem Wf_eq (m : (ℓ : Loc Cert.KernelIdeal.nD Cert.KernelIdeal.τ Cert.KernelIdeal.sig) → Buf (Elt Ideal) ℓ)
    (c : Dev Cert.KernelIdeal.nD) :
    Wf m c = fun e k => m ((c.tc : Thread Cert.KernelIdeal.nD Cert.KernelIdeal.τ).loc Cert.KernelIdeal.main_arg2) (ix2 e k) := by
  unfold Cert.KernelIdeal.Inv.Wf
  rw [Cert.KernelIdeal.Gen.V_main_arg2]

/-- Under the precondition the reference's value and the kernel's value of the launch contents are one extended real: the
    precondition gives real entries and rows with positive sums of squares, which is what the row-by-row equality asks. -/
theorem spec_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.rresult
        (fun n k => m ((c.tc : Thread Cert.KernelIdeal.nD Cert.KernelIdeal.τ).loc Cert.KernelIdeal.main_arg0) (ix2 n k))
        (fun n k => m ((c.tc : Thread Cert.KernelIdeal.nD Cert.KernelIdeal.τ).loc Cert.KernelIdeal.main_arg1) (ix2 n k))
        (fun e k => m ((c.tc : Thread Cert.KernelIdeal.nD Cert.KernelIdeal.τ).loc Cert.KernelIdeal.main_arg2) (ix2 e k))
      = Cert.Spec.kresult (Qf m c) (Cf m c) (Wf m c) := by
  obtain ⟨h0, h1, h2, hq, hc⟩ := Cert.PreFacts.decode _ _ _ (hpre c)
  rw [Qf_eq, Cf_eq, Wf_eq]
  exact (Cert.Math.kresult_eq_rresult _ _ _ (fun n k => h0 (ix2 n k)) (fun n k => h1 (ix2 n k))
    (fun e k => h2 (ix2 e k)) hq hc).symm

/-- Both programs end at the kernel's value of the arguments: the kernel by its run, the reference because its result, read
    as a function of its own arguments, is the reference's value of them, its arguments are the kernel's, and the two values
    agree under the precondition. -/
theorem algebraic : Cert.algebraic_KernelIdeal_ReferenceIdeal := by
  intro m ρ m' ρ' hpre hagree
  refine ⟨fun c => fun _ => Cert.Spec.kresult (Qf m c) (Cf m c) (Wf m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefRead.value, (hagree c).1, (hagree c).2.1, (hagree c).2.2]
  funext _
  exact spec_agree m hpre c

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
